-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x1 : Shape := ⟨2, ![65536, 1]⟩
abbrev S1048576 : Shape := ⟨1, ![1048576]⟩
abbrev S64x64 : Shape := ⟨2, ![64, 64]⟩
abbrev S64 : Shape := ⟨1, ![64]⟩
abbrev S1x64 : Shape := ⟨2, ![1, 64]⟩
abbrev S3x3 : Shape := ⟨2, ![3, 3]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S3x3 : S_.BroadcastsInDim S3x3 (![] : Fin 0 → Fin S3x3.rank)
  reducesTo_S3x3_S_d0_1 : S3x3.ReducesTo [0, 1] S_

variable [Facts]

def fn_part4 {F : FTy → Type} [FloatOps F] (main_arg16 : FVec F S1x64 .f32) (main_arg17 : FVec F S3x3 .f32) (main_v63 : IVec S_ 1) (main_v67 : IVec S_ 1) : IVec S_ 1 :=
  let main_v68 : IVec S_ 1 := andi main_v63 main_v67
  let main_v69 : FVec F S1x64 .f32 := Host.absf main_arg16
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_v74 : FVec F S3x3 .f32 := Host.absf main_arg17
  let main_cst_28 : FVec F S_ .f32 := constant S_ .f32 0x7F800000#32
  let main_v75 : FVec F S3x3 .f32 := broadcastInDim S3x3 ![] bcast_S_S3x3 main_cst_28
  let main_v76 : IVec S3x3 1 := cmpf .olt main_v74 main_v75
  let main_c_29 : IVec S_ 1 := constantI S_ 1 1#1
  let main_v77 : IVec S_ 1 := (fun x v => Host.reduce IntOp.andi x v reducesTo_S3x3_S_d0_1 h_S_) main_v76 main_c_29
  let main_v78 : IVec S_ 1 := andi main_v73 main_v77
  main_v78

def fn_part3 {F : FTy → Type} [FloatOps F] (main_arg13 : FVec F S64 .f32) (main_arg14 : FVec F S1x64 .f32) (main_arg15 : FVec F S1x64 .f32) (main_arg16 : FVec F S1x64 .f32) (main_arg17 : FVec F S3x3 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x64 .f32 := Host.absf main_arg14
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1x64 .f32 := Host.absf main_arg15
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_arg16 main_arg17 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S1x64 .f32) (main_arg15 : FVec F S1x64 .f32) (main_arg16 : FVec F S1x64 .f32) (main_arg17 : FVec F S3x3 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S1x64 .f32) (main_arg15 : FVec F S1x64 .f32) (main_arg16 : FVec F S1x64 .f32) (main_arg17 : FVec F S3x3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S65536x64 .f32) (main_arg1 : FVec F S65536x1 .f32) (main_arg2 : IVec S1048576 32) (main_arg3 : IVec S1048576 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S1x64 .f32) (main_arg15 : FVec F S1x64 .f32) (main_arg16 : FVec F S1x64 .f32) (main_arg17 : FVec F S3x3 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x1 .f32 := Host.absf main_arg1
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S65536x64 : Shape := ⟨2, ![65536, 64]⟩
abbrev S65536x1 : Shape := ⟨2, ![65536, 1]⟩
abbrev S1048576 : Shape := ⟨1, ![1048576]⟩
abbrev S64x64 : Shape := ⟨2, ![64, 64]⟩
abbrev S64 : Shape := ⟨1, ![64]⟩
abbrev S1x64 : Shape := ⟨2, ![1, 64]⟩
abbrev S3x3 : Shape := ⟨2, ![3, 3]⟩
abbrev S4096x64 : Shape := ⟨2, ![4096, 64]⟩
abbrev S4096x1 : Shape := ⟨2, ![4096, 1]⟩
abbrev S_ : Shape := ⟨0, ![]⟩
abbrev S1048576x1 : Shape := ⟨2, ![1048576, 1]⟩
abbrev S1048576x64 : Shape := ⟨2, ![1048576, 64]⟩
abbrev S65536 : Shape := ⟨1, ![65536]⟩
abbrev S4096 : Shape := ⟨1, ![4096]⟩
abbrev S1x1 : Shape := ⟨2, ![1, 1]⟩

abbrev nBuf : Space → Nat
  | .hbm => 73
  | .vmem => 40
  | .smem => 0
  | _ => 0

abbrev bufTy : (tb : Table) → Fin (tcTables nBuf tb) → BufTy
  | .hbm, ⟨0, _⟩ => ⟨S65536x64, .f32⟩
  | .hbm, ⟨1, _⟩ => ⟨S65536x1, .f32⟩
  | .hbm, ⟨2, _⟩ => ⟨S1048576, .i32⟩
  | .hbm, ⟨3, _⟩ => ⟨S1048576, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S3x3, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S65536x64, .f32⟩
  | .hbm, ⟨24, _⟩ => ⟨S65536x64, .f32⟩
  | .hbm, ⟨25, _⟩ => ⟨S65536x64, .f32⟩
  | .hbm, ⟨26, _⟩ => ⟨S65536x64, .f32⟩
  | .hbm, ⟨27, _⟩ => ⟨S65536x64, .f32⟩
  | .hbm, ⟨28, _⟩ => ⟨S_, .i32⟩
  | .hbm, ⟨29, _⟩ => ⟨S1048576, .i32⟩
  | .hbm, ⟨30, _⟩ => ⟨S1048576, .i1⟩
  | .hbm, ⟨31, _⟩ => ⟨S_, .i32⟩
  | .hbm, ⟨32, _⟩ => ⟨S1048576, .i32⟩
  | .hbm, ⟨33, _⟩ => ⟨S1048576, .i32⟩
  | .hbm, ⟨34, _⟩ => ⟨S1048576, .i32⟩
  | .hbm, ⟨35, _⟩ => ⟨S1048576x1, .i32⟩
  | .hbm, ⟨36, _⟩ => ⟨S1048576x64, .f32⟩
  | .hbm, ⟨37, _⟩ => ⟨S_, .i32⟩
  | .hbm, ⟨38, _⟩ => ⟨S1048576, .i32⟩
  | .hbm, ⟨39, _⟩ => ⟨S1048576, .i1⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S1048576, .i32⟩
  | .hbm, ⟨44, _⟩ => ⟨S1048576x1, .i32⟩
  | .hbm, ⟨45, _⟩ => ⟨S1048576x64, .f32⟩
  | .hbm, ⟨46, _⟩ => ⟨S_, .f32⟩
  | .hbm, ⟨47, _⟩ => ⟨S65536x64, .f32⟩
  | .hbm, ⟨48, _⟩ => ⟨S1048576x1, .i32⟩
  | .hbm, ⟨49, _⟩ => ⟨S65536x64, .f32⟩
  | .hbm, ⟨50, _⟩ => ⟨S_, .f32⟩
  | .hbm, ⟨51, _⟩ => ⟨S65536x64, .f32⟩
  | .hbm, ⟨52, _⟩ => ⟨S1048576x1, .i32⟩
  | .hbm, ⟨53, _⟩ => ⟨S65536x64, .f32⟩
  | .hbm, ⟨54, _⟩ => ⟨S_, .f32⟩
  | .hbm, ⟨55, _⟩ => ⟨S1048576, .f32⟩
  | .hbm, ⟨56, _⟩ => ⟨S_, .f32⟩
  | .hbm, ⟨57, _⟩ => ⟨S65536, .f32⟩
  | .hbm, ⟨58, _⟩ => ⟨S1048576x1, .i32⟩
  | .hbm, ⟨59, _⟩ => ⟨S65536, .f32⟩
  | .hbm, ⟨60, _⟩ => ⟨S_, .f32⟩
  | .hbm, ⟨61, _⟩ => ⟨S65536, .f32⟩
  | .hbm, ⟨62, _⟩ => ⟨S65536, .f32⟩
  | .hbm, ⟨63, _⟩ => ⟨S_, .f32⟩
  | .hbm, ⟨64, _⟩ => ⟨S65536, .f32⟩
  | .hbm, ⟨65, _⟩ => ⟨S65536, .f32⟩
  | .hbm, ⟨66, _⟩ => ⟨S65536x1, .f32⟩
  | .hbm, ⟨67, _⟩ => ⟨S65536x64, .f32⟩
  | .hbm, ⟨68, _⟩ => ⟨S65536x64, .f32⟩
  | .hbm, ⟨69, _⟩ => ⟨S65536x1, .f32⟩
  | .hbm, ⟨70, _⟩ => ⟨S65536x64, .f32⟩
  | .hbm, ⟨71, _⟩ => ⟨S65536x64, .f32⟩
  | .hbm, ⟨72, _⟩ => ⟨S65536x64, .f32⟩
  | .local _ .vmem, ⟨0, _⟩ => ⟨S4096x64, .f32⟩
  | .local _ .vmem, ⟨1, _⟩ => ⟨S4096x64, .f32⟩
  | .local _ .vmem, ⟨2, _⟩ => ⟨S4096x1, .f32⟩
  | .local _ .vmem, ⟨3, _⟩ => ⟨S4096x1, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S4096x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .vmem, ⟨23, _⟩ => ⟨S4096x64, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S4096x64, .f32⟩
  | .local _ .vmem, ⟨28, _⟩ => ⟨S4096x64, .f32⟩
  | .local _ .vmem, ⟨29, _⟩ => ⟨S4096x64, .f32⟩
  | .local _ .vmem, ⟨30, _⟩ => ⟨S4096x64, .f32⟩
  | .local _ .vmem, ⟨31, _⟩ => ⟨S4096x64, .f32⟩
  | .local _ .vmem, ⟨32, _⟩ => ⟨S4096x64, .f32⟩
  | .local _ .vmem, ⟨33, _⟩ => ⟨S4096x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S3x3, .f32⟩
  | .local _ .vmem, ⟨38, _⟩ => ⟨S4096x64, .f32⟩
  | .local _ .vmem, ⟨39, _⟩ => ⟨S4096x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v5_2 : Ref sig .tc := ⟨.hbm, 25, rfl⟩
abbrev main_v5_3 : Ref sig .tc := ⟨.hbm, 26, rfl⟩
abbrev main_v5_4 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_v13 : Ref sig .tc := ⟨.hbm, 38, rfl⟩
abbrev main_v14 : Ref sig .tc := ⟨.hbm, 39, rfl⟩
abbrev main_c_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_6 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg9_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem9_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4096x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  broadcasts_S4096x1_S4096x64 : S4096x1.Broadcasts S4096x64
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S4096x64_S4096x64 : S4096x64.ShapeCasts S4096x64
  reduces_S4096x64_S4096 : S4096x64.Reduces [1] S4096
  shapeCasts_S4096_S4096x1 : S4096.ShapeCasts S4096x1
  inb_S3x3_S3x3_0_0 : ∀ a, (![0, 0] : Fin 2 → Nat) a + S3x3.size a ≤ S3x3.size a
  h_S3x3 : 0 < S3x3.numel
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  dot_S4096x64_S64x64_S4096x64_1_0_0_1_n_n_wf : DotDims.WF S4096x64 S64x64 S4096x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  scatter_S65536_S1048576x1_S1048576_n_0_0_1_wf : ScatterDims.WF S65536 S1048576x1 S1048576 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .f32 = 32 ∨ (Rect.block (s := S65536x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x64.size a ≤ S65536x64.size a
  hwx0_12 : ∀ i : grid0.Coords, EltTy.bits .f32 = 32 ∨ (Rect.block (s := S65536x64) S4096x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x64.size a ≤ S65536x64.size a
  hwx0_13 : ∀ i : grid0.Coords, EltTy.bits .f32 = 32 ∨ (Rect.block (s := S65536x64) S4096x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4096x64.size a ≤ S65536x64.size a
  hwx0_14 : ∀ i : grid0.Coords, EltTy.bits .f32 = 32 ∨ (Rect.block (s := S65536x64) S4096x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4096x64.size a ≤ S65536x64.size a
  hwx0_15 : ∀ i : grid0.Coords, EltTy.bits .f32 = 32 ∨ (Rect.block (s := S65536x64) S4096x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4096x64.size a ≤ S65536x64.size a
  hwx0_16 : ∀ i : grid0.Coords, EltTy.bits .f32 = 32 ∨ (Rect.block (s := S65536x64) S4096x64.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S65536x64.size a
  hwx1_0 : ∀ i : grid1.Coords, EltTy.bits .f32 = 32 ∨ (Rect.block (s := S65536x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S65536x64.size a
  hwx1_1 : ∀ i : grid1.Coords, EltTy.bits .f32 = 32 ∨ (Rect.block (s := S65536x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S65536x64.size a
  hwx1_2 : ∀ i : grid1.Coords, EltTy.bits .f32 = 32 ∨ (Rect.block (s := S65536x64) S4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S65536x64.size a
  hwx1_3 : ∀ i : grid1.Coords, EltTy.bits .f32 = 32 ∨ (Rect.block (s := S65536x64) S4096x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S65536x64.size a
  hwx1_4 : ∀ i : grid1.Coords, EltTy.bits .f32 = 32 ∨ (Rect.block (s := S65536x64) S4096x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x3.size a ≤ S3x3.size a
  hwx1_8 : ∀ i : grid1.Coords, EltTy.bits .f32 = 32 ∨ (Rect.block (s := S3x3) S3x3.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x64.size a ≤ S65536x64.size a
  hwx1_9 : ∀ i : grid1.Coords, EltTy.bits .f32 = 32 ∨ (Rect.block (s := S65536x64) S4096x64.size (cc1_transform_9 i) (hinb1_9 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5_0) S4096x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_1) S4096x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_2) S4096x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v5_3) S4096x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v5_4) S4096x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v5_0) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S4096x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S4096x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S3x3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S4096x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S65536x64 : Shape := ⟨2, ![65536, 64]⟩
abbrev S65536x1 : Shape := ⟨2, ![65536, 1]⟩
abbrev S1048576 : Shape := ⟨1, ![1048576]⟩
abbrev S64x64 : Shape := ⟨2, ![64, 64]⟩
abbrev S64 : Shape := ⟨1, ![64]⟩
abbrev S1x64 : Shape := ⟨2, ![1, 64]⟩
abbrev S3x3 : Shape := ⟨2, ![3, 3]⟩
abbrev S_ : Shape := ⟨0, ![]⟩
abbrev S1048576x1 : Shape := ⟨2, ![1048576, 1]⟩
abbrev S1048576x64 : Shape := ⟨2, ![1048576, 64]⟩
abbrev S65536 : Shape := ⟨1, ![65536]⟩
abbrev S64x1 : Shape := ⟨2, ![64, 1]⟩
abbrev S65536x3 : Shape := ⟨2, ![65536, 3]⟩

abbrev nBuf : Space → Nat
  | .hbm => 162
  | .vmem => 0
  | .smem => 0
  | _ => 0

abbrev hbmTy0_0 (i : Nat) : BufTy := match i % 128 with
  | 0 => ⟨S65536x64, .f32⟩
  | 1 => ⟨S65536x1, .f32⟩
  | 2 => ⟨S1048576, .i32⟩
  | 3 => ⟨S1048576, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S1x64, .f32⟩
  | 15 => ⟨S1x64, .f32⟩
  | 16 => ⟨S1x64, .f32⟩
  | 17 => ⟨S3x3, .f32⟩
  | 18 => ⟨S64x64, .f32⟩
  | 19 => ⟨S65536x64, .f32⟩
  | 20 => ⟨S1x64, .f32⟩
  | 21 => ⟨S65536x64, .f32⟩
  | 22 => ⟨S65536x64, .f32⟩
  | 23 => ⟨S_, .f32⟩
  | 24 => ⟨S65536x64, .f32⟩
  | 25 => ⟨S65536x64, .f32⟩
  | 26 => ⟨S64x64, .f32⟩
  | 27 => ⟨S65536x64, .f32⟩
  | 28 => ⟨S1x64, .f32⟩
  | 29 => ⟨S65536x64, .f32⟩
  | 30 => ⟨S65536x64, .f32⟩
  | 31 => ⟨S_, .f32⟩
  | 32 => ⟨S65536x64, .f32⟩
  | 33 => ⟨S65536x64, .f32⟩
  | 34 => ⟨S64x64, .f32⟩
  | 35 => ⟨S65536x64, .f32⟩
  | 36 => ⟨S1x64, .f32⟩
  | 37 => ⟨S65536x64, .f32⟩
  | 38 => ⟨S65536x64, .f32⟩
  | 39 => ⟨S_, .f32⟩
  | 40 => ⟨S65536x64, .f32⟩
  | 41 => ⟨S65536x64, .f32⟩
  | 42 => ⟨S65536x64, .f32⟩
  | 43 => ⟨S65536x64, .f32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x64, .f32⟩
  | 53 => ⟨S_, .f32⟩
  | 54 => ⟨S65536x64, .f32⟩
  | 55 => ⟨S1048576x1, .i32⟩
  | 56 => ⟨S65536x64, .f32⟩
  | 57 => ⟨S_, .f32⟩
  | 58 => ⟨S1048576, .f32⟩
  | 59 => ⟨S_, .f32⟩
  | 60 => ⟨S65536, .f32⟩
  | 61 => ⟨S1048576x1, .i32⟩
  | 62 => ⟨S65536, .f32⟩
  | 63 => ⟨S_, .f32⟩
  | 64 => ⟨S65536, .f32⟩
  | 65 => ⟨S65536, .f32⟩
  | 66 => ⟨S65536x1, .f32⟩
  | 67 => ⟨S65536x64, .f32⟩
  | 68 => ⟨S65536x64, .f32⟩
  | 69 => ⟨S64x64, .f32⟩
  | 70 => ⟨S65536x64, .f32⟩
  | 71 => ⟨S1x64, .f32⟩
  | 72 => ⟨S65536x64, .f32⟩
  | 73 => ⟨S65536x64, .f32⟩
  | 74 => ⟨S_, .f32⟩
  | 75 => ⟨S65536x64, .f32⟩
  | 76 => ⟨S65536x64, .f32⟩
  | 77 => ⟨S65536x64, .f32⟩
  | 78 => ⟨S65536x64, .f32⟩
  | 79 => ⟨S_, .i32⟩
  | 80 => ⟨S1048576, .i32⟩
  | 81 => ⟨S1048576, .i1⟩
  | 82 => ⟨S_, .i32⟩
  | 83 => ⟨S1048576, .i32⟩
  | 84 => ⟨S1048576, .i32⟩
  | 85 => ⟨S1048576, .i32⟩
  | 86 => ⟨S1048576x1, .i32⟩
  | 87 => ⟨S1048576x64, .f32⟩
  | 88 => ⟨S_, .f32⟩
  | 89 => ⟨S65536x64, .f32⟩
  | 90 => ⟨S1048576x1, .i32⟩
  | 91 => ⟨S65536x64, .f32⟩
  | 92 => ⟨S_, .f32⟩
  | 93 => ⟨S1048576, .f32⟩
  | 94 => ⟨S_, .f32⟩
  | 95 => ⟨S65536, .f32⟩
  | 96 => ⟨S1048576x1, .i32⟩
  | 97 => ⟨S65536, .f32⟩
  | 98 => ⟨S_, .f32⟩
  | 99 => ⟨S65536, .f32⟩
  | 100 => ⟨S65536, .f32⟩
  | 101 => ⟨S65536x1, .f32⟩
  | 102 => ⟨S65536x64, .f32⟩
  | 103 => ⟨S65536x64, .f32⟩
  | 104 => ⟨S65536x64, .f32⟩
  | 105 => ⟨S65536x64, .f32⟩
  | 106 => ⟨S64x64, .f32⟩
  | 107 => ⟨S65536x64, .f32⟩
  | 108 => ⟨S1x64, .f32⟩
  | 109 => ⟨S65536x64, .f32⟩
  | 110 => ⟨S65536x64, .f32⟩
  | 111 => ⟨S_, .f32⟩
  | 112 => ⟨S65536x64, .f32⟩
  | 113 => ⟨S65536x64, .f32⟩
  | 114 => ⟨S64x1, .f32⟩
  | 115 => ⟨S65536x1, .f32⟩
  | 116 => ⟨S64x1, .f32⟩
  | 117 => ⟨S65536x1, .f32⟩
  | 118 => ⟨S64x1, .f32⟩
  | 119 => ⟨S65536x1, .f32⟩
  | 120 => ⟨S65536x3, .f32⟩
  | 121 => ⟨S65536x3, .f32⟩
  | 122 => ⟨S65536x3, .f32⟩
  | 123 => ⟨S_, .f32⟩
  | 124 => ⟨S65536x3, .f32⟩
  | 125 => ⟨S65536x3, .f32⟩
  | 126 => ⟨S_, .f32⟩
  | 127 => ⟨S65536x3, .f32⟩
  | _ => ⟨S65536x64, .f32⟩

abbrev hbmTy0_1 (i : Nat) : BufTy := match i % 128 with
  | 0 => ⟨S65536x3, .f32⟩
  | 1 => ⟨S3x3, .f32⟩
  | 2 => ⟨S65536x3, .f32⟩
  | 3 => ⟨S_, .f32⟩
  | 4 => ⟨S65536x3, .f32⟩
  | 5 => ⟨S65536x3, .f32⟩
  | 6 => ⟨S_, .f32⟩
  | 7 => ⟨S65536, .f32⟩
  | 8 => ⟨S_, .f32⟩
  | 9 => ⟨S65536, .f32⟩
  | 10 => ⟨S65536, .f32⟩
  | 11 => ⟨S65536x1, .f32⟩
  | 12 => ⟨S65536x3, .f32⟩
  | 13 => ⟨S65536x3, .f32⟩
  | 14 => ⟨S65536x3, .f32⟩
  | 15 => ⟨S_, .f32⟩
  | 16 => ⟨S65536, .f32⟩
  | 17 => ⟨S65536x1, .f32⟩
  | 18 => ⟨S65536x3, .f32⟩
  | 19 => ⟨S65536x3, .f32⟩
  | 20 => ⟨S65536x1, .f32⟩
  | 21 => ⟨S65536x64, .f32⟩
  | 22 => ⟨S65536x64, .f32⟩
  | 23 => ⟨S65536x1, .f32⟩
  | 24 => ⟨S65536x64, .f32⟩
  | 25 => ⟨S65536x64, .f32⟩
  | 26 => ⟨S65536x64, .f32⟩
  | 27 => ⟨S65536x1, .f32⟩
  | 28 => ⟨S65536x64, .f32⟩
  | 29 => ⟨S65536x64, .f32⟩
  | 30 => ⟨S65536x64, .f32⟩
  | 31 => ⟨S_, .f32⟩
  | 32 => ⟨S65536x64, .f32⟩
  | 33 => ⟨S65536x64, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_1 : Ref sig .tc := ⟨.hbm, 57, rfl⟩
abbrev main_v30 : Ref sig .tc := ⟨.hbm, 58, rfl⟩
abbrev main_cst_2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call3_cst : Ref sig .tc := ⟨.hbm, 74, rfl⟩
abbrev main_call3_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_4 : Ref sig .tc := ⟨.hbm, 79, rfl⟩
abbrev main_v47 : Ref sig .tc := ⟨.hbm, 80, rfl⟩
abbrev main_v48 : Ref sig .tc := ⟨.hbm, 81, rfl⟩
abbrev main_c_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_7 : Ref sig .tc := ⟨.hbm, 92, rfl⟩
abbrev main_v57 : Ref sig .tc := ⟨.hbm, 93, rfl⟩
abbrev main_cst_8 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_9 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call4_cst : Ref sig .tc := ⟨.hbm, 111, rfl⟩
abbrev main_call4_v0 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_10 : Ref sig .tc := ⟨.hbm, 123, rfl⟩
abbrev main_v83 : Ref sig .tc := ⟨.hbm, 124, rfl⟩
abbrev main_v84 : Ref sig .tc := ⟨.hbm, 125, rfl⟩
abbrev main_cst_11 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_12 : Ref sig .tc := ⟨.hbm, 131, rfl⟩
abbrev main_v89 : Ref sig .tc := ⟨.hbm, 132, rfl⟩
abbrev main_v90 : Ref sig .tc := ⟨.hbm, 133, rfl⟩
abbrev main_cst_13 : Ref sig .tc := ⟨.hbm, 134, rfl⟩
abbrev main_v91 : Ref sig .tc := ⟨.hbm, 135, rfl⟩
abbrev main_cst_14 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_15 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_16 : Ref sig .tc := ⟨.hbm, 159, rfl⟩
abbrev main_v113 : Ref sig .tc := ⟨.hbm, 160, rfl⟩
abbrev main_v114 : Ref sig .tc := ⟨.hbm, 161, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S65536x1_S65536x64_0_1 : S65536x1.BroadcastsInDim S65536x64 (![0, 1] : Fin 2 → Fin S65536x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536 : S_.BroadcastsInDim S65536 (![] : Fin 0 → Fin S65536.rank)
  bcast_S65536_S65536x1_0 : S65536.BroadcastsInDim S65536x1 (![0] : Fin 1 → Fin S65536x1.rank)
  transposes_S1x64_S64x1_1_0 : S1x64.Transposes [1, 0] S64x1
  concatenates_S65536x1_S65536x1_S65536x1_S65536x3_d1 : Shape.Concatenates [S65536x1, S65536x1, S65536x1] S65536x3 1
  bcast_S_S65536x3 : S_.BroadcastsInDim S65536x3 (![] : Fin 0 → Fin S65536x3.rank)
  transposes_S3x3_S3x3_1_0 : S3x3.Transposes [1, 0] S3x3
  reducesTo_S65536x3_S65536_d1 : S65536x3.ReducesTo [1] S65536
  h_S_ : 0 < S_.numel
  bcast_S65536x1_S65536x3_0_1 : S65536x1.BroadcastsInDim S65536x3 (![0, 1] : Fin 2 → Fin S65536x3.rank)
  slices_S65536x3_S65536x1_0_0 : S65536x3.Slices ![0, 0] S65536x1
  slices_S65536x3_S65536x1_0_1 : S65536x3.Slices ![0, 1] S65536x1
  slices_S65536x3_S65536x1_0_2 : S65536x3.Slices ![0, 2] S65536x1
  dot_S65536x64_S64x64_S65536x64_1_0_0_1_n_n_wf : DotDims.WF S65536x64 S64x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  scatter_S65536_S1048576x1_S1048576_n_0_0_1_wf : ScatterDims.WF S65536 S1048576x1 S1048576 [] [0] [0] 1
  dot_S65536x64_S64x1_S65536x1_1_0_0_1_n_n_wf : DotDims.WF S65536x64 S64x1 S65536x1 [1] [0] [0] [1] [] []
  dot_S65536x3_S3x3_S65536x3_1_0_0_1_n_n_wf : DotDims.WF S65536x3 S3x3 S65536x3 [1] [0] [0] [1] [] []

variable [Facts₀]

def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def dot_S65536x3_S3x3_S65536x3_1_0_0_1_n_n : DotDims S65536x3 S3x3 S65536x3 where
  lhsContracting := [1]
  rhsContracting := [0]
  lhsNonContracting := [0]
  rhsNonContracting := [1]
  lhsBatch := []
  rhsBatch := []
  wf := dot_S65536x3_S3x3_S65536x3_1_0_0_1_n_n_wf

class Facts : Prop extends Facts₀ where

variable [Facts]
-- ==== Proof.KRun.lean ====
/-
  The idealized kernel's run with the result buffer named.

  The program is four segments: the bias reshapes, the first kernel, the gather / scatter-add stretch, the second
  kernel.  Every weakly fair execution goes through them in order and ends with every unscoped buffer at the
  contents the fold through the segments gives; the post keeps that fact for the result buffer beside the arguments.
-/
import proofs.«175057_j62878321213496_2_alg».proof.Proof.Gen.KernelIdeal.Frame
import Idealize.ShloMosaic.PureOps.Ideal

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates without a fault, with the result buffer at the fold's final contents and
    the argument arrays as launched. -/
theorem run : θ_run defs (onTc (τ := τ) (main (F := Ideal))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.Sage.KRun

end
-- ==== Proof.Spec.lean ====
/-
  The layer as functions of its arguments, entry by entry, on the extended reals.

  A node's five projections are `relu (x · Wᵀ + b)`; two of them are scaled by the node's norm, summed over incoming
  edges and turned into a mean (that part is common to both programs and stays an opaque array); the three branches
  `lo = self_lo + mean_lo`, `hi = self_hi - mean_hi`, `id` are mixed with softmax weights obtained from one logit per
  branch.  Every function here is stated for an array of `n` rows of 64 features, so that it reads a block of rows and the
  whole array alike, and every entry depends only on its own row (`linReluAt_congr`, `mixAtRow_congr`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- `n` rows of 64 features; a 64×64 weight matrix; a per-row column; an attention or bias row; the 3×3 mixer. -/
abbrev Rows (n : ℕ) : Shape := ⟨2, ![n, 64]⟩
abbrev Mat : Shape := ⟨2, ![64, 64]⟩
abbrev Col (n : ℕ) : Shape := ⟨2, ![n, 1]⟩
abbrev Row : Shape := ⟨2, ![1, 64]⟩
abbrev Att : Shape := ⟨2, ![3, 3]⟩

/-- The float words `0.0` and `3.0`, kept as words: both programs use the same ones. -/
abbrev w0 : EReal := Ideal.ofBits .f32 0x00000000#32
abbrev w3 : EReal := Ideal.ofBits .f32 0x40400000#32

variable {n n' : ℕ}

/-- A bias vector laid out as a one-row array. -/
def biasRow (b : (⟨1, ![64]⟩ : Shape).Idx → EReal) : Row.Idx → EReal := fun i => b (ix1 (i 1))

/-- `relu (x · Wᵀ + b)` at entry `(r, j)`: the row `r` of `x` against the row `j` of `W`. -/
def linReluAt (x : (Rows n).Idx → EReal) (W : Mat.Idx → EReal) (b : Row.Idx → EReal) (r : Fin n) (j : Fin 64) : EReal :=
  max ((∑ k : Fin 64, x (ix2 r k) * W (ix2 j k)) + b (ix2 (0 : Fin 1) j)) w0

theorem linReluAt_congr (x : (Rows n).Idx → EReal) (x' : (Rows n').Idx → EReal) (W : Mat.Idx → EReal) (b : Row.Idx → EReal)
    (r : Fin n) (r' : Fin n') (j : Fin 64) (h : ∀ k : Fin 64, x (ix2 r k) = x' (ix2 r' k)) :
    linReluAt x W b r j = linReluAt x' W b r' j := by
  unfold linReluAt
  simp only [h]

/-- A branch's logit at row `r`: the row against the branch's attention vector. -/
def logit (y : (Rows n).Idx → EReal) (w : Row.Idx → EReal) (r : Fin n) : EReal :=
  ∑ k : Fin 64, y (ix2 r k) * w (ix2 (0 : Fin 1) k)

theorem logit_congr (y : (Rows n).Idx → EReal) (y' : (Rows n').Idx → EReal) (w : Row.Idx → EReal) (r : Fin n) (r' : Fin n')
    (h : ∀ k : Fin 64, y (ix2 r k) = y' (ix2 r' k)) : logit y w r = logit y' w r' := by
  unfold logit
  simp only [h]

/-- The logistic gate `1 / (1 + e^(-x))`. -/
def gate (x : EReal) : EReal := Ideal.div 1 (1 + Ideal.exp (-x))

/-- Row `q` of the 3×3 mixer applied to the three gates, over three. -/
def score (s0 s1 s2 : EReal) (A : Att.Idx → EReal) (q : Fin 3) : EReal :=
  Ideal.div ((s0 * A (ix2 q (0 : Fin 3)) + s1 * A (ix2 q (1 : Fin 3))) + s2 * A (ix2 q (2 : Fin 3))) w3

/-- The softmax numerator of one score against the three. -/
def expo (p p0 p1 p2 : EReal) : EReal := Ideal.exp (p - max (max p0 p1) p2)

/-- The three branches mixed by the softmax of the scores: `3 · (a₀·lo + a₁·hi + a₂·id)` at one entry. -/
def mixAt (p0 p1 p2 lo hi id : EReal) : EReal :=
  w3 * ((Ideal.div (expo p0 p0 p1 p2) ((expo p0 p0 p1 p2 + expo p1 p0 p1 p2) + expo p2 p0 p1 p2) * lo
        + Ideal.div (expo p1 p0 p1 p2) ((expo p0 p0 p1 p2 + expo p1 p0 p1 p2) + expo p2 p0 p1 p2) * hi)
        + Ideal.div (expo p2 p0 p1 p2) ((expo p0 p0 p1 p2 + expo p1 p0 p1 p2) + expo p2 p0 p1 p2) * id)

/-- The attention stage at entry `(r, j)`: the scores come from row `r`'s three logits. -/
def mixAtRow (lo hi id : (Rows n).Idx → EReal) (wl wh wm : Row.Idx → EReal) (A : Att.Idx → EReal) (r : Fin n) (j : Fin 64) : EReal :=
  mixAt (score (gate (logit lo wl r)) (gate (logit hi wh r)) (gate (logit id wm r)) A 0)
        (score (gate (logit lo wl r)) (gate (logit hi wh r)) (gate (logit id wm r)) A 1)
        (score (gate (logit lo wl r)) (gate (logit hi wh r)) (gate (logit id wm r)) A 2)
        (lo (ix2 r j)) (hi (ix2 r j)) (id (ix2 r j))

theorem mixAtRow_congr (lo hi id : (Rows n).Idx → EReal) (lo' hi' id' : (Rows n').Idx → EReal) (wl wh wm : Row.Idx → EReal)
    (A : Att.Idx → EReal) (r : Fin n) (r' : Fin n') (j : Fin 64)
    (hl : ∀ k : Fin 64, lo (ix2 r k) = lo' (ix2 r' k)) (hh : ∀ k : Fin 64, hi (ix2 r k) = hi' (ix2 r' k))
    (hd : ∀ k : Fin 64, id (ix2 r k) = id' (ix2 r' k)) :
    mixAtRow lo hi id wl wh wm A r j = mixAtRow lo' hi' id' wl wh wm A r' j := by
  unfold mixAtRow
  rw [logit_congr lo lo' wl r r' hl, logit_congr hi hi' wh r r' hh, logit_congr id id' wm r r' hd, hl j, hh j, hd j]

/-- Dividing by a quantity that is at least one is multiplying by its reciprocal: off zero the quotient of the
    extended reals is the product with the inverse, and `1 / b` is that inverse. -/
theorem mul_one_div_of_max (a d : EReal) : a * Ideal.div 1 (max d 1) = Ideal.div a (max d 1) := by
  have hb : max d 1 ≠ 0 := by
    intro h
    have h1 : (1 : EReal) ≤ max d 1 := le_max_right _ _
    rw [h] at h1
    exact absurd h1 (by norm_num)
  unfold Ideal.div
  rw [if_neg hb, if_neg hb, one_mul]

end Cert.Sage

end
-- ==== Proof.Block0.lean ====
/-
  What the first kernel computes on one block of 4096 nodes, entry by entry.

  Each of its five results is `relu (x · Wᵀ + b)` of the block's rows: the matrix unit's pass into a zero accumulator is
  the plain sum over the 64 features of `x (p, k) · W (q, k)` (the weight matrix is transposed before the pass, and the
  change to the narrow float format is the identity on the extended reals); the bias row is broadcast down the block;
  two of the results are further multiplied by the node's norm, a one-column array broadcast along the features.
-/
import proofs.«175057_j62878321213496_2_alg».proof.Proof.Gen.KernelIdeal.Skeleton
import proofs.«175057_j62878321213496_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Block0

open Cert.KernelIdeal Cert.KernelIdeal.Gen Idealize.ShloMosaic Idealize.ShloMosaic.ValueIdx Idealize.SL.Sem
open scoped BigOperators

/-! ## The matrix product of a block with a 64×64 matrix, read at an entry -/

theorem lhs_row (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_col (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem rhs_row (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem rhs_col (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The pass into the zero accumulator at entry `(p, q)`: the sum over the shared axis of the products. -/
theorem matmul_at {φ₁ φ₂ : FTy} (a : FVec Ideal S4096x64 φ₁) (b : FVec Ideal S64x64 φ₂) (p : Fin 4096) (q : Fin 64) :
    matmul dot_S4096x64_S64x64_S4096x64_1_0_0_1_n_n none a b (constant S4096x64 .f32 0x00000000#32) (ix2 p q) = ∑ k : Fin 64, a (ix2 p k) * b (ix2 k q) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 p q) ((ValueIdx.contrEquiv1 dot_S4096x64_S64x64_S4096x64_1_0_0_1_n_n 64 rfl rfl).symm k) = ix2 p k := funext fun a => Fin.ext (by
    match a with
    | ⟨0, _⟩ => exact lhs_row _ _
    | ⟨1, _⟩ => exact (lhs_col _ _).trans hk)
  have er : dot_S4096x64_S64x64_S4096x64_1_0_0_1_n_n.rhsIdx (ix2 p q) ((ValueIdx.contrEquiv1 dot_S4096x64_S64x64_S4096x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- A one-column array broadcast along the features reads, at `(p, c)`, the column's entry of row `p`. -/
theorem bcastCol_at {α : Type} (v : S4096x1.Idx → α) (h : S4096x1.Broadcasts S4096x64) (p : Fin 4096) (c : Fin 64) :
    broadcastTo S4096x64 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ## The body's results at an entry -/

/-- The common tree of the five results, over the narrowed operands. -/
theorem core_at (xb : FVec Ideal S4096x64 .bf16) (Wb : FVec Ideal S64x64 .bf16) (b : Vec Ideal S1x64 .f32) (p : Fin 4096) (q : Fin 64) :
    maximumf (addf (matmul dot_S4096x64_S64x64_S4096x64_1_0_0_1_n_n none xb (transpose S64x64 [1, 0] Wb transposes_S64x64_p1_0_S64x64) (constant S4096x64 .f32 0x00000000#32))
        (broadcastTo S4096x64 (shapeCast S1x64 b shapeCasts_S1x64_S1x64) broadcasts_S1x64_S4096x64))
      (broadcast S4096x64 (Scalar.ofBits (F := Ideal) .f32 0x00000000#32)) (ix2 p q)
    = linReluAt (n := 4096) xb Wb b p q := by
  show max (matmul dot_S4096x64_S64x64_S4096x64_1_0_0_1_n_n none xb (transpose S64x64 [1, 0] Wb transposes_S64x64_p1_0_S64x64) (constant S4096x64 .f32 0x00000000#32) (ix2 p q)
      + broadcastTo S4096x64 (shapeCast S1x64 b shapeCasts_S1x64_S1x64) broadcasts_S1x64_S4096x64 (ix2 p q)) w0 = _
  rw [matmul_at, broadcastTo_1b_ab_apply, shapeCast_self]
  unfold linReluAt
  refine congrArg (fun s => max (s + b (ix2 (0 : Fin 1) q)) w0) (Finset.sum_congr rfl fun k _ => ?_)
  exact congrArg (xb (ix2 p k) * ·) (transpose_ix2_apply (a := 64) (b := 64) Wb transposes_S64x64_p1_0_S64x64 k q)

theorem pay4_at (x : Vec Ideal S4096x64 .f32) (W : Vec Ideal S64x64 .f32) (b : Vec Ideal S1x64 .f32) (p : Fin 4096) (q : Fin 64) :
    k0_pay4 x W b (ix2 p q) = linReluAt (n := 4096) x W b p q := by
  unfold k0_pay4 k0_pay3
  exact core_at _ _ b p q

theorem pay5_at (x : Vec Ideal S4096x64 .f32) (W : Vec Ideal S64x64 .f32) (b : Vec Ideal S1x64 .f32) (p : Fin 4096) (q : Fin 64) :
    k0_pay5 x W b (ix2 p q) = linReluAt (n := 4096) x W b p q := by
  unfold k0_pay5 k0_pay3
  exact core_at _ _ b p q

theorem pay6_at (x : Vec Ideal S4096x64 .f32) (W : Vec Ideal S64x64 .f32) (b : Vec Ideal S1x64 .f32) (p : Fin 4096) (q : Fin 64) :
    k0_pay6 x W b (ix2 p q) = linReluAt (n := 4096) x W b p q := by
  unfold k0_pay6 k0_pay3
  exact core_at _ _ b p q

/-- The two message results: the same tree times the node's norm. -/
theorem pay1_at (x : Vec Ideal S4096x64 .f32) (n : Vec Ideal S4096x1 .f32) (W : Vec Ideal S64x64 .f32) (b : Vec Ideal S1x64 .f32) (p : Fin 4096) (q : Fin 64) :
    k0_pay1 (k0_pay3 x) n (k0_pay7 W) b (ix2 p q) = linReluAt (n := 4096) x W b p q * n (ix2 p (0 : Fin 1)) := by
  unfold k0_pay1 k0_pay3 k0_pay7
  show _ * broadcastTo S4096x64 n broadcasts_S4096x1_S4096x64 (ix2 p q) = _
  rw [bcastCol_at]
  exact congrArg (· * n (ix2 p (0 : Fin 1))) (core_at _ _ b p q)

theorem pay2_at (x : Vec Ideal S4096x64 .f32) (n : Vec Ideal S4096x1 .f32) (W : Vec Ideal S64x64 .f32) (b : Vec Ideal S1x64 .f32) (p : Fin 4096) (q : Fin 64) :
    k0_pay2 (k0_pay3 x) n W b (ix2 p q) = linReluAt (n := 4096) x W b p q * n (ix2 p (0 : Fin 1)) := by
  unfold k0_pay2 k0_pay3
  show _ * broadcastTo S4096x64 n broadcasts_S4096x1_S4096x64 (ix2 p q) = _
  rw [bcastCol_at]
  exact congrArg (· * n (ix2 p (0 : Fin 1))) (core_at _ _ b p q)

end Cert.Sage.Block0

end
-- ==== Proof.Arr0.lean ====
/-
  From the first kernel's blocks to its five result arrays.

  Grid point `t` works on rows `4096·t … 4096·t + 4095`: the feature block, the norm block and every result block sit at
  block row `t`, while the weight matrices and bias rows are fetched whole at every point.  So what point `t` writes back
  is the restriction of one whole-array function to its rows, the sixteen points cover the array, and each result
  array ends as that function of the arrays the region found.
-/
import proofs.«175057_j62878321213496_2_alg».proof.Proof.Gen.KernelIdeal.Frame
import proofs.«175057_j62878321213496_2_alg».proof.Proof.Spec
import proofs.«175057_j62878321213496_2_alg».proof.Proof.Block0
import Idealize.ShloMosaic.Lib.Pipeline.Value
import Idealize.ShloMosaic.Lib.ValueIdx

set_option maxRecDepth 16384

noncomputable section

namespace Cert.Sage.Arr0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the sixteen grid points. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_15.index t (0 : Fin 2) = t.val
    ∧ win0_15.index t (1 : Fin 2) = 0
    ∧ win0_16.index t (0 : Fin 2) = t.val
    ∧ win0_16.index t (1 : Fin 2) = 0 :=
  (by decide +kernel : ∀ t : Fin grid0.N, _)

/-- The array row that row `p` of point `t`'s block is. -/
def rowOf (t : Fin cfg0.N) (p : Fin 4096) : Fin 65536 :=
  ⟨t.val * 4096 + p.val, by
    have ht := t.isLt
    have hN : cfg0.N = 16 := N_0
    have hp := p.isLt
    omega⟩

/-- The feature block at a point is the array's rows of that point. -/
theorem feat_at (c : Dev nD) (t : Fin cfg0.N) (p : Fin 4096) (k : Fin 64) :
    iblk0 V c 0 t (ix2 p k) = V c main_arg0 (ix2 (rowOf t p) k) := by
  have f := idx_facts t
  show V c main_arg0 (((cfg0.win 0).blk t).view.emb (ix2 p k)) = _
  refine congrArg (V c main_arg0) (funext fun a => Fin.ext ?_)
  match a with
  | ⟨0, _⟩ => show win0_0.index t (0 : Fin 2) * 4096 + 1 * p.val = t.val * 4096 + p.val; omega
  | ⟨1, _⟩ => show win0_0.index t (1 : Fin 2) * 64 + 1 * k.val = k.val; omega

/-- The norm block at a point likewise. -/
theorem norm_at (c : Dev nD) (t : Fin cfg0.N) (p : Fin 4096) :
    iblk0 V c 1 t (ix2 p (0 : Fin 1)) = V c main_arg1 (ix2 (rowOf t p) (0 : Fin 1)) := by
  have f := idx_facts t
  show V c main_arg1 (((cfg0.win 1).blk t).view.emb (ix2 p (0 : Fin 1))) = _
  refine congrArg (V c main_arg1) (funext fun a => Fin.ext ?_)
  match a with
  | ⟨0, _⟩ => show win0_1.index t (0 : Fin 2) * 4096 + 1 * p.val = t.val * 4096 + p.val; omega
  | ⟨1, _⟩ => show win0_1.index t (1 : Fin 2) * 1 + 1 * 0 = 0; omega

/-- Window 2 is fetched whole: its block at any point is the array. -/
theorem whole2 (c : Dev nD) (t : Fin cfg0.N) : (iblk0 V c 2 t : S64x64.Idx → EReal) = V c main_arg4 := by
  have f := idx_facts t
  funext y
  show V c main_arg4 (((cfg0.win 2).blk t).view.emb y) = _
  refine congrArg (V c main_arg4) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3 is fetched whole: its block at any point is the array. -/
theorem whole3 (c : Dev nD) (t : Fin cfg0.N) : (iblk0 V c 3 t : S1x64.Idx → EReal) = V c main_v0 := by
  have f := idx_facts t
  funext y
  show V c main_v0 (((cfg0.win 3).blk t).view.emb y) = _
  refine congrArg (V c main_v0) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4 is fetched whole: its block at any point is the array. -/
theorem whole4 (c : Dev nD) (t : Fin cfg0.N) : (iblk0 V c 4 t : S64x64.Idx → EReal) = V c main_arg6 := by
  have f := idx_facts t
  funext y
  show V c main_arg6 (((cfg0.win 4).blk t).view.emb y) = _
  refine congrArg (V c main_arg6) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5 is fetched whole: its block at any point is the array. -/
theorem whole5 (c : Dev nD) (t : Fin cfg0.N) : (iblk0 V c 5 t : S1x64.Idx → EReal) = V c main_v1 := by
  have f := idx_facts t
  funext y
  show V c main_v1 (((cfg0.win 5).blk t).view.emb y) = _
  refine congrArg (V c main_v1) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Window 6 is fetched whole: its block at any point is the array. -/
theorem whole6 (c : Dev nD) (t : Fin cfg0.N) : (iblk0 V c 6 t : S64x64.Idx → EReal) = V c main_arg8 := by
  have f := idx_facts t
  funext y
  show V c main_arg8 (((cfg0.win 6).blk t).view.emb y) = _
  refine congrArg (V c main_arg8) (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- Window 7 is fetched whole: its block at any point is the array. -/
theorem whole7 (c : Dev nD) (t : Fin cfg0.N) : (iblk0 V c 7 t : S1x64.Idx → EReal) = V c main_v2 := by
  have f := idx_facts t
  funext y
  show V c main_v2 (((cfg0.win 7).blk t).view.emb y) = _
  refine congrArg (V c main_v2) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Window 8 is fetched whole: its block at any point is the array. -/
theorem whole8 (c : Dev nD) (t : Fin cfg0.N) : (iblk0 V c 8 t : S64x64.Idx → EReal) = V c main_arg10 := by
  have f := idx_facts t
  funext y
  show V c main_arg10 (((cfg0.win 8).blk t).view.emb y) = _
  refine congrArg (V c main_arg10) (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

/-- Window 9 is fetched whole: its block at any point is the array. -/
theorem whole9 (c : Dev nD) (t : Fin cfg0.N) : (iblk0 V c 9 t : S1x64.Idx → EReal) = V c main_v3 := by
  have f := idx_facts t
  funext y
  show V c main_v3 (((cfg0.win 9).blk t).view.emb y) = _
  refine congrArg (V c main_v3) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

/-- Window 10 is fetched whole: its block at any point is the array. -/
theorem whole10 (c : Dev nD) (t : Fin cfg0.N) : (iblk0 V c 10 t : S64x64.Idx → EReal) = V c main_arg12 := by
  have f := idx_facts t
  funext y
  show V c main_arg12 (((cfg0.win 10).blk t).view.emb y) = _
  refine congrArg (V c main_arg12) (funext fun a => Fin.ext ?_)
  match a with
  | ⟨0, _⟩ => show win0_10.index t (0 : Fin 2) * 64 + 1 * (y 0).val = (y 0).val; omega
  | ⟨1, _⟩ => show win0_10.index t (1 : Fin 2) * 64 + 1 * (y 1).val = (y 1).val; omega

/-- Window 11 is fetched whole: its block at any point is the array. -/
theorem whole11 (c : Dev nD) (t : Fin cfg0.N) : (iblk0 V c 11 t : S1x64.Idx → EReal) = V c main_v4 := by
  have f := idx_facts t
  funext y
  show V c main_v4 (((cfg0.win 11).blk t).view.emb y) = _
  refine congrArg (V c main_v4) (funext fun a => Fin.ext ?_)
  match a with
  | ⟨0, _⟩ => show win0_11.index t (0 : Fin 2) * 1 + 1 * (y 0).val = (y 0).val; omega
  | ⟨1, _⟩ => show win0_11.index t (1 : Fin 2) * 64 + 1 * (y 1).val = (y 1).val; omega

/-! ## Result window 12 -/

/-- The result block's entry `(p, q)` at point `t` is the array's entry `(rowOf t p, q)`. -/
theorem emb12 (t : Fin cfg0.N) (p : Fin 4096) (q : Fin 64) :
    ((cfg0.win 12).blk t).view.emb (ix2 p q) = ix2 (rowOf t p) q := by
  have f := idx_facts t
  funext a
  apply Fin.ext
  match a with
  | ⟨0, _⟩ => show win0_12.index t (0 : Fin 2) * 4096 + 1 * p.val = t.val * 4096 + p.val; omega
  | ⟨1, _⟩ => show win0_12.index t (1 : Fin 2) * 64 + 1 * q.val = q.val; omega

/-- What point `t` writes back is block `t` of the whole-array function. -/
theorem flushed12_eq (c : Dev nD) (t : Fin cfg0.N) :
    (dat0 V c).flushed 12 t = ((cfg0.win 12).blk t).view.read (Elt Ideal) (fun i => linReluAt (n := 65536) (V c main_arg0) (V c main_arg4) (V c main_v0) (i 0) (i 1)) := by
  show (cfg0.win 12).cut (grid0.coords t) ((dat0 V c).after 12 t) = _
  rw [after0_12]
  unfold out0_12
  rw [View.canon_unit_zero hz]
  simp only [View.ld_unit_zero (S := S4096x64) hz, View.ld_unit_zero (S := S4096x1) hz, View.ld_unit_zero (S := S64x64) hz, View.ld_unit_zero (S := S1x64) hz]
  funext j
  obtain ⟨p, q, rfl⟩ : ∃ (p : Fin 4096) (q : Fin 64), j = ix2 p q := ⟨j 0, j 1, eq_ix2 j⟩
  show k0_pay4 (iblk0 V c 0 t) (iblk0 V c 2 t) (iblk0 V c 3 t) (ix2 p q) = (fun i => linReluAt (n := 65536) (V c main_arg0) (V c main_arg4) (V c main_v0) (i 0) (i 1)) (((cfg0.win 12).blk t).view.emb (ix2 p q))
  rw [emb12]
  refine (Block0.pay4_at (iblk0 V c 0 t) (iblk0 V c 2 t) (iblk0 V c 3 t) p q).trans ?_
  show _ = linReluAt (n := 65536) (V c main_arg0) (V c main_arg4) (V c main_v0) (rowOf t p) q
  rw [whole2 V c t, whole3 V c t]
  exact (linReluAt_congr _ _ _ _ p (rowOf t p) q fun k => feat_at V c t p k)

/-- Every entry of the array lies in some point's block: row `r` in block `r / 4096`. -/
theorem cover12 (i : S65536x64.Idx) : ∃ t : Fin cfg0.N, (cfg0.win 12).flush t = true ∧ i ∈ ((cfg0.win 12).blk t).view.set := by
  have hi0 : (i 0).val < 65536 := (i 0).isLt
  have hi1 : (i 1).val < 64 := (i 1).isLt
  let t : Fin cfg0.N := ⟨(i 0).val / 4096, by rw [show cfg0.N = 16 from N_0]; omega⟩
  have f := idx_facts t
  refine ⟨t, flush0_12 t, ?_⟩
  show i ∈ ((View.whole main_v5_0).slice (win0_12.rect t)).set
  rw [View.set_slice_whole, Rect.mem_set_unit]
  intro a
  match a with
  | ⟨0, _⟩ => show win0_12.index t (0 : Fin 2) * 4096 ≤ (i 0).val ∧ (i 0).val < win0_12.index t (0 : Fin 2) * 4096 + 4096
              have ht : t.val = (i 0).val / 4096 := rfl
              omega
  | ⟨1, _⟩ => show win0_12.index t (1 : Fin 2) * 64 ≤ (i 1).val ∧ (i 1).val < win0_12.index t (1 : Fin 2) * 64 + 64
              omega

/-- The array after the region. -/
theorem arr12 (c : Dev nD) :
    (dat0 V c).arrAt 12 cfg0.N = (fun i => linReluAt (n := 65536) (V c main_arg0) (V c main_arg4) (V c main_v0) (i 0) (i 1)) :=
  (dat0 V c).arrAt_eq_of_cover 12 _ (fun t _ => flushed12_eq V c t) (cover12)

/-! ## Result window 13 -/

/-- The result block's entry `(p, q)` at point `t` is the array's entry `(rowOf t p, q)`. -/
theorem emb13 (t : Fin cfg0.N) (p : Fin 4096) (q : Fin 64) :
    ((cfg0.win 13).blk t).view.emb (ix2 p q) = ix2 (rowOf t p) q := by
  have f := idx_facts t
  funext a
  apply Fin.ext
  match a with
  | ⟨0, _⟩ => show win0_13.index t (0 : Fin 2) * 4096 + 1 * p.val = t.val * 4096 + p.val; omega
  | ⟨1, _⟩ => show win0_13.index t (1 : Fin 2) * 64 + 1 * q.val = q.val; omega

/-- What point `t` writes back is block `t` of the whole-array function. -/
theorem flushed13_eq (c : Dev nD) (t : Fin cfg0.N) :
    (dat0 V c).flushed 13 t = ((cfg0.win 13).blk t).view.read (Elt Ideal) (fun i => linReluAt (n := 65536) (V c main_arg0) (V c main_arg6) (V c main_v1) (i 0) (i 1)) := by
  show (cfg0.win 13).cut (grid0.coords t) ((dat0 V c).after 13 t) = _
  rw [after0_13]
  unfold out0_13
  rw [View.canon_unit_zero hz]
  simp only [View.ld_unit_zero (S := S4096x64) hz, View.ld_unit_zero (S := S4096x1) hz, View.ld_unit_zero (S := S64x64) hz, View.ld_unit_zero (S := S1x64) hz]
  funext j
  obtain ⟨p, q, rfl⟩ : ∃ (p : Fin 4096) (q : Fin 64), j = ix2 p q := ⟨j 0, j 1, eq_ix2 j⟩
  show k0_pay5 (iblk0 V c 0 t) (iblk0 V c 4 t) (iblk0 V c 5 t) (ix2 p q) = (fun i => linReluAt (n := 65536) (V c main_arg0) (V c main_arg6) (V c main_v1) (i 0) (i 1)) (((cfg0.win 13).blk t).view.emb (ix2 p q))
  rw [emb13]
  refine (Block0.pay5_at (iblk0 V c 0 t) (iblk0 V c 4 t) (iblk0 V c 5 t) p q).trans ?_
  show _ = linReluAt (n := 65536) (V c main_arg0) (V c main_arg6) (V c main_v1) (rowOf t p) q
  rw [whole4 V c t, whole5 V c t]
  exact (linReluAt_congr _ _ _ _ p (rowOf t p) q fun k => feat_at V c t p k)

/-- Every entry of the array lies in some point's block: row `r` in block `r / 4096`. -/
theorem cover13 (i : S65536x64.Idx) : ∃ t : Fin cfg0.N, (cfg0.win 13).flush t = true ∧ i ∈ ((cfg0.win 13).blk t).view.set := by
  have hi0 : (i 0).val < 65536 := (i 0).isLt
  have hi1 : (i 1).val < 64 := (i 1).isLt
  let t : Fin cfg0.N := ⟨(i 0).val / 4096, by rw [show cfg0.N = 16 from N_0]; omega⟩
  have f := idx_facts t
  refine ⟨t, flush0_13 t, ?_⟩
  show i ∈ ((View.whole main_v5_1).slice (win0_13.rect t)).set
  rw [View.set_slice_whole, Rect.mem_set_unit]
  intro a
  match a with
  | ⟨0, _⟩ => show win0_13.index t (0 : Fin 2) * 4096 ≤ (i 0).val ∧ (i 0).val < win0_13.index t (0 : Fin 2) * 4096 + 4096
              have ht : t.val = (i 0).val / 4096 := rfl
              omega
  | ⟨1, _⟩ => show win0_13.index t (1 : Fin 2) * 64 ≤ (i 1).val ∧ (i 1).val < win0_13.index t (1 : Fin 2) * 64 + 64
              omega

/-- The array after the region. -/
theorem arr13 (c : Dev nD) :
    (dat0 V c).arrAt 13 cfg0.N = (fun i => linReluAt (n := 65536) (V c main_arg0) (V c main_arg6) (V c main_v1) (i 0) (i 1)) :=
  (dat0 V c).arrAt_eq_of_cover 13 _ (fun t _ => flushed13_eq V c t) (cover13)

/-! ## Result window 14 -/

/-- The result block's entry `(p, q)` at point `t` is the array's entry `(rowOf t p, q)`. -/
theorem emb14 (t : Fin cfg0.N) (p : Fin 4096) (q : Fin 64) :
    ((cfg0.win 14).blk t).view.emb (ix2 p q) = ix2 (rowOf t p) q := by
  have f := idx_facts t
  funext a
  apply Fin.ext
  match a with
  | ⟨0, _⟩ => show win0_14.index t (0 : Fin 2) * 4096 + 1 * p.val = t.val * 4096 + p.val; omega
  | ⟨1, _⟩ => show win0_14.index t (1 : Fin 2) * 64 + 1 * q.val = q.val; omega

/-- What point `t` writes back is block `t` of the whole-array function. -/
theorem flushed14_eq (c : Dev nD) (t : Fin cfg0.N) :
    (dat0 V c).flushed 14 t = ((cfg0.win 14).blk t).view.read (Elt Ideal) (fun i => linReluAt (n := 65536) (V c main_arg0) (V c main_arg12) (V c main_v4) (i 0) (i 1)) := by
  show (cfg0.win 14).cut (grid0.coords t) ((dat0 V c).after 14 t) = _
  rw [after0_14]
  unfold out0_14
  rw [View.canon_unit_zero hz]
  simp only [View.ld_unit_zero (S := S4096x64) hz, View.ld_unit_zero (S := S4096x1) hz, View.ld_unit_zero (S := S64x64) hz, View.ld_unit_zero (S := S1x64) hz]
  funext j
  obtain ⟨p, q, rfl⟩ : ∃ (p : Fin 4096) (q : Fin 64), j = ix2 p q := ⟨j 0, j 1, eq_ix2 j⟩
  show k0_pay6 (iblk0 V c 0 t) (iblk0 V c 10 t) (iblk0 V c 11 t) (ix2 p q) = (fun i => linReluAt (n := 65536) (V c main_arg0) (V c main_arg12) (V c main_v4) (i 0) (i 1)) (((cfg0.win 14).blk t).view.emb (ix2 p q))
  rw [emb14]
  refine (Block0.pay6_at (iblk0 V c 0 t) (iblk0 V c 10 t) (iblk0 V c 11 t) p q).trans ?_
  show _ = linReluAt (n := 65536) (V c main_arg0) (V c main_arg12) (V c main_v4) (rowOf t p) q
  rw [whole10 V c t, whole11 V c t]
  exact (linReluAt_congr _ _ _ _ p (rowOf t p) q fun k => feat_at V c t p k)

/-- Every entry of the array lies in some point's block: row `r` in block `r / 4096`. -/
theorem cover14 (i : S65536x64.Idx) : ∃ t : Fin cfg0.N, (cfg0.win 14).flush t = true ∧ i ∈ ((cfg0.win 14).blk t).view.set := by
  have hi0 : (i 0).val < 65536 := (i 0).isLt
  have hi1 : (i 1).val < 64 := (i 1).isLt
  let t : Fin cfg0.N := ⟨(i 0).val / 4096, by rw [show cfg0.N = 16 from N_0]; omega⟩
  have f := idx_facts t
  refine ⟨t, flush0_14 t, ?_⟩
  show i ∈ ((View.whole main_v5_2).slice (win0_14.rect t)).set
  rw [View.set_slice_whole, Rect.mem_set_unit]
  intro a
  match a with
  | ⟨0, _⟩ => show win0_14.index t (0 : Fin 2) * 4096 ≤ (i 0).val ∧ (i 0).val < win0_14.index t (0 : Fin 2) * 4096 + 4096
              have ht : t.val = (i 0).val / 4096 := rfl
              omega
  | ⟨1, _⟩ => show win0_14.index t (1 : Fin 2) * 64 ≤ (i 1).val ∧ (i 1).val < win0_14.index t (1 : Fin 2) * 64 + 64
              omega

/-- The array after the region. -/
theorem arr14 (c : Dev nD) :
    (dat0 V c).arrAt 14 cfg0.N = (fun i => linReluAt (n := 65536) (V c main_arg0) (V c main_arg12) (V c main_v4) (i 0) (i 1)) :=
  (dat0 V c).arrAt_eq_of_cover 14 _ (fun t _ => flushed14_eq V c t) (cover14)

/-! ## Result window 15 -/

/-- The result block's entry `(p, q)` at point `t` is the array's entry `(rowOf t p, q)`. -/
theorem emb15 (t : Fin cfg0.N) (p : Fin 4096) (q : Fin 64) :
    ((cfg0.win 15).blk t).view.emb (ix2 p q) = ix2 (rowOf t p) q := by
  have f := idx_facts t
  funext a
  apply Fin.ext
  match a with
  | ⟨0, _⟩ => show win0_15.index t (0 : Fin 2) * 4096 + 1 * p.val = t.val * 4096 + p.val; omega
  | ⟨1, _⟩ => show win0_15.index t (1 : Fin 2) * 64 + 1 * q.val = q.val; omega

/-- What point `t` writes back is block `t` of the whole-array function. -/
theorem flushed15_eq (c : Dev nD) (t : Fin cfg0.N) :
    (dat0 V c).flushed 15 t = ((cfg0.win 15).blk t).view.read (Elt Ideal) (fun i => linReluAt (n := 65536) (V c main_arg0) (V c main_arg8) (V c main_v2) (i 0) (i 1) * V c main_arg1 (ix2 (i 0) (0 : Fin 1))) := by
  show (cfg0.win 15).cut (grid0.coords t) ((dat0 V c).after 15 t) = _
  rw [after0_15]
  unfold out0_15
  rw [View.canon_unit_zero hz]
  simp only [View.ld_unit_zero (S := S4096x64) hz, View.ld_unit_zero (S := S4096x1) hz, View.ld_unit_zero (S := S64x64) hz, View.ld_unit_zero (S := S1x64) hz]
  funext j
  obtain ⟨p, q, rfl⟩ : ∃ (p : Fin 4096) (q : Fin 64), j = ix2 p q := ⟨j 0, j 1, eq_ix2 j⟩
  show k0_pay1 (k0_pay3 (iblk0 V c 0 t)) (iblk0 V c 1 t) (k0_pay7 (iblk0 V c 6 t)) (iblk0 V c 7 t) (ix2 p q) = (fun i => linReluAt (n := 65536) (V c main_arg0) (V c main_arg8) (V c main_v2) (i 0) (i 1) * V c main_arg1 (ix2 (i 0) (0 : Fin 1))) (((cfg0.win 15).blk t).view.emb (ix2 p q))
  rw [emb15]
  refine (Block0.pay1_at (iblk0 V c 0 t) (iblk0 V c 1 t) (iblk0 V c 6 t) (iblk0 V c 7 t) p q).trans ?_
  show _ = linReluAt (n := 65536) (V c main_arg0) (V c main_arg8) (V c main_v2) (rowOf t p) q * V c main_arg1 (ix2 (rowOf t p) (0 : Fin 1))
  rw [whole6 V c t, whole7 V c t, norm_at V c t p]
  exact congrArg (· * V c main_arg1 (ix2 (rowOf t p) (0 : Fin 1))) (linReluAt_congr _ _ _ _ p (rowOf t p) q fun k => feat_at V c t p k)

/-- Every entry of the array lies in some point's block: row `r` in block `r / 4096`. -/
theorem cover15 (i : S65536x64.Idx) : ∃ t : Fin cfg0.N, (cfg0.win 15).flush t = true ∧ i ∈ ((cfg0.win 15).blk t).view.set := by
  have hi0 : (i 0).val < 65536 := (i 0).isLt
  have hi1 : (i 1).val < 64 := (i 1).isLt
  let t : Fin cfg0.N := ⟨(i 0).val / 4096, by rw [show cfg0.N = 16 from N_0]; omega⟩
  have f := idx_facts t
  refine ⟨t, flush0_15 t, ?_⟩
  show i ∈ ((View.whole main_v5_3).slice (win0_15.rect t)).set
  rw [View.set_slice_whole, Rect.mem_set_unit]
  intro a
  match a with
  | ⟨0, _⟩ => show win0_15.index t (0 : Fin 2) * 4096 ≤ (i 0).val ∧ (i 0).val < win0_15.index t (0 : Fin 2) * 4096 + 4096
              have ht : t.val = (i 0).val / 4096 := rfl
              omega
  | ⟨1, _⟩ => show win0_15.index t (1 : Fin 2) * 64 ≤ (i 1).val ∧ (i 1).val < win0_15.index t (1 : Fin 2) * 64 + 64
              omega

/-- The array after the region. -/
theorem arr15 (c : Dev nD) :
    (dat0 V c).arrAt 15 cfg0.N = (fun i => linReluAt (n := 65536) (V c main_arg0) (V c main_arg8) (V c main_v2) (i 0) (i 1) * V c main_arg1 (ix2 (i 0) (0 : Fin 1))) :=
  (dat0 V c).arrAt_eq_of_cover 15 _ (fun t _ => flushed15_eq V c t) (cover15)

/-! ## Result window 16 -/

/-- The result block's entry `(p, q)` at point `t` is the array's entry `(rowOf t p, q)`. -/
theorem emb16 (t : Fin cfg0.N) (p : Fin 4096) (q : Fin 64) :
    ((cfg0.win 16).blk t).view.emb (ix2 p q) = ix2 (rowOf t p) q := by
  have f := idx_facts t
  funext a
  apply Fin.ext
  match a with
  | ⟨0, _⟩ => show win0_16.index t (0 : Fin 2) * 4096 + 1 * p.val = t.val * 4096 + p.val; omega
  | ⟨1, _⟩ => show win0_16.index t (1 : Fin 2) * 64 + 1 * q.val = q.val; omega

/-- What point `t` writes back is block `t` of the whole-array function. -/
theorem flushed16_eq (c : Dev nD) (t : Fin cfg0.N) :
    (dat0 V c).flushed 16 t = ((cfg0.win 16).blk t).view.read (Elt Ideal) (fun i => linReluAt (n := 65536) (V c main_arg0) (V c main_arg10) (V c main_v3) (i 0) (i 1) * V c main_arg1 (ix2 (i 0) (0 : Fin 1))) := by
  show (cfg0.win 16).cut (grid0.coords t) ((dat0 V c).after 16 t) = _
  rw [after0_16]
  unfold out0_16
  rw [View.canon_unit_zero hz]
  simp only [View.ld_unit_zero (S := S4096x64) hz, View.ld_unit_zero (S := S4096x1) hz, View.ld_unit_zero (S := S64x64) hz, View.ld_unit_zero (S := S1x64) hz]
  funext j
  obtain ⟨p, q, rfl⟩ : ∃ (p : Fin 4096) (q : Fin 64), j = ix2 p q := ⟨j 0, j 1, eq_ix2 j⟩
  show k0_pay2 (k0_pay3 (iblk0 V c 0 t)) (iblk0 V c 1 t) (iblk0 V c 8 t) (iblk0 V c 9 t) (ix2 p q) = (fun i => linReluAt (n := 65536) (V c main_arg0) (V c main_arg10) (V c main_v3) (i 0) (i 1) * V c main_arg1 (ix2 (i 0) (0 : Fin 1))) (((cfg0.win 16).blk t).view.emb (ix2 p q))
  rw [emb16]
  refine (Block0.pay2_at (iblk0 V c 0 t) (iblk0 V c 1 t) (iblk0 V c 8 t) (iblk0 V c 9 t) p q).trans ?_
  show _ = linReluAt (n := 65536) (V c main_arg0) (V c main_arg10) (V c main_v3) (rowOf t p) q * V c main_arg1 (ix2 (rowOf t p) (0 : Fin 1))
  rw [whole8 V c t, whole9 V c t, norm_at V c t p]
  exact congrArg (· * V c main_arg1 (ix2 (rowOf t p) (0 : Fin 1))) (linReluAt_congr _ _ _ _ p (rowOf t p) q fun k => feat_at V c t p k)

/-- Every entry of the array lies in some point's block: row `r` in block `r / 4096`. -/
theorem cover16 (i : S65536x64.Idx) : ∃ t : Fin cfg0.N, (cfg0.win 16).flush t = true ∧ i ∈ ((cfg0.win 16).blk t).view.set := by
  have hi0 : (i 0).val < 65536 := (i 0).isLt
  have hi1 : (i 1).val < 64 := (i 1).isLt
  let t : Fin cfg0.N := ⟨(i 0).val / 4096, by rw [show cfg0.N = 16 from N_0]; omega⟩
  have f := idx_facts t
  refine ⟨t, flush0_16 t, ?_⟩
  show i ∈ ((View.whole main_v5_4).slice (win0_16.rect t)).set
  rw [View.set_slice_whole, Rect.mem_set_unit]
  intro a
  match a with
  | ⟨0, _⟩ => show win0_16.index t (0 : Fin 2) * 4096 ≤ (i 0).val ∧ (i 0).val < win0_16.index t (0 : Fin 2) * 4096 + 4096
              have ht : t.val = (i 0).val / 4096 := rfl
              omega
  | ⟨1, _⟩ => show win0_16.index t (1 : Fin 2) * 64 ≤ (i 1).val ∧ (i 1).val < win0_16.index t (1 : Fin 2) * 64 + 64
              omega

/-- The array after the region. -/
theorem arr16 (c : Dev nD) :
    (dat0 V c).arrAt 16 cfg0.N = (fun i => linReluAt (n := 65536) (V c main_arg0) (V c main_arg10) (V c main_v3) (i 0) (i 1) * V c main_arg1 (ix2 (i 0) (0 : Fin 1))) :=
  (dat0 V c).arrAt_eq_of_cover 16 _ (fun t _ => flushed16_eq V c t) (cover16)

end Cert.Sage.Arr0

end
-- ==== Proof.Block1.lean ====
/-
  What the second kernel computes on one block of 4096 nodes, entry by entry.

  From the five blocks it forms `lo = self_lo + mean_lo`, `hi = self_hi - mean_hi` and `id`; each branch's logit is the
  lane sum of the branch's row times the branch's attention vector, gated by the logistic function; the three gates go
  through the 3×3 mixer (its nine entries extracted one by one) and a division by three; the softmax of the three scores
  is spelled with the running maximum; the result is three times the weighted sum of the branches.  Everything but the
  lane sums, the broadcasts and the mixer's entries acts entry by entry on one-column arrays.
-/
import proofs.«175057_j62878321213496_2_alg».proof.Proof.Gen.KernelIdeal.Skeleton
import proofs.«175057_j62878321213496_2_alg».proof.Proof.Spec
import proofs.«175057_j62878321213496_2_alg».proof.Proof.Block0
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Block1

open Cert.KernelIdeal Cert.KernelIdeal.Gen Idealize.ShloMosaic Idealize.ShloMosaic.ValueIdx Idealize.SL.Sem
open scoped BigOperators

/-! ## The layout operations of the body, read at an entry -/

/-- A vector of 4096 cast to one column reads, at `(p, 0)`, its entry `p`. -/
theorem colCast_at {α : Type} (v : S4096.Idx → α) (h : S4096.ShapeCasts S4096x1) (p : Fin 4096) :
    shapeCast S4096x1 v h (ix2 p (0 : Fin 1)) = v (ix1 p) :=
  shapeCast_apply v h _ _ (by
    rw [Shape.rowMajor_val_two, Shape.rowMajor_val_one]
    show p.val = p.val * 1 + 0
    omega)

/-- The lane sum of a block at row `p`: the sum over the 64 features. -/
theorem rowSum_at (src : FVec Ideal S4096x64 .f32) (hφ : FKind.Formats .f32)
    (hacc : (0x00000000#32 : BitVec FTy.f32.bits) = FKind.add.neutral .f32 hφ) (p : Fin 4096) :
    multiReduction .add [1] S4096 src 0x00000000#32 reduces_S4096x64_S4096 hφ hacc (ix1 p) = ∑ k : Fin 64, src (ix2 p k) := by
  refine (Ideal.multiReduction_add_single src 0x00000000#32 reduces_S4096x64_S4096 hφ hacc (ix1 p)).trans ?_
  refine Finset.sum_congr rfl fun k _ => congrArg src ?_
  funext c
  apply Fin.ext
  match c with
  | ⟨0, _⟩ => rfl
  | ⟨1, _⟩ => rfl

/-- One entry of the mixer, as the body extracts it: a 1×1 slice at `(i, j)`, then its only element. -/
theorem ent_at (A : S3x3.Idx → EReal) (off : Fin S3x3.rank → Nat) (h : S3x3.Slices off S1x1)
    (hp : ∀ a, (![0, 0] : Fin S1x1.rank → Nat) a < S1x1.size a) (i j : Fin 3) (hi : off 0 = i.val) (hj : off 1 = j.val) :
    extractAt ![0, 0] (extractStridedSlice S1x1 off A h) hp = A (ix2 i j) := by
  unfold extractAt
  refine extractStridedSlice_apply off A h _ (ix2 i j) fun a => ?_
  match a with
  | ⟨0, _⟩ => show i.val = off 0 + 0; omega
  | ⟨1, _⟩ => show j.val = off 1 + 0; omega

theorem a00 (A : S3x3.Idx → EReal) :
    extractAt ![0, 0] (extractStridedSlice S1x1 ![0, 0] A slices_S3x3_o0_0_S1x1) inpos_S1x1_p0_0 = A (ix2 (0 : Fin 3) (0 : Fin 3)) :=
  ent_at A _ _ _ 0 0 rfl rfl
theorem a01 (A : S3x3.Idx → EReal) :
    extractAt ![0, 0] (extractStridedSlice S1x1 ![0, 1] A slices_S3x3_o0_1_S1x1) inpos_S1x1_p0_0 = A (ix2 (0 : Fin 3) (1 : Fin 3)) :=
  ent_at A _ _ _ 0 1 rfl rfl
theorem a02 (A : S3x3.Idx → EReal) :
    extractAt ![0, 0] (extractStridedSlice S1x1 ![0, 2] A slices_S3x3_o0_2_S1x1) inpos_S1x1_p0_0 = A (ix2 (0 : Fin 3) (2 : Fin 3)) :=
  ent_at A _ _ _ 0 2 rfl rfl
theorem a10 (A : S3x3.Idx → EReal) :
    extractAt ![0, 0] (extractStridedSlice S1x1 ![1, 0] A slices_S3x3_o1_0_S1x1) inpos_S1x1_p0_0 = A (ix2 (1 : Fin 3) (0 : Fin 3)) :=
  ent_at A _ _ _ 1 0 rfl rfl
theorem a11 (A : S3x3.Idx → EReal) :
    extractAt ![0, 0] (extractStridedSlice S1x1 ![1, 1] A slices_S3x3_o1_1_S1x1) inpos_S1x1_p0_0 = A (ix2 (1 : Fin 3) (1 : Fin 3)) :=
  ent_at A _ _ _ 1 1 rfl rfl
theorem a12 (A : S3x3.Idx → EReal) :
    extractAt ![0, 0] (extractStridedSlice S1x1 ![1, 2] A slices_S3x3_o1_2_S1x1) inpos_S1x1_p0_0 = A (ix2 (1 : Fin 3) (2 : Fin 3)) :=
  ent_at A _ _ _ 1 2 rfl rfl
theorem a20 (A : S3x3.Idx → EReal) :
    extractAt ![0, 0] (extractStridedSlice S1x1 ![2, 0] A slices_S3x3_o2_0_S1x1) inpos_S1x1_p0_0 = A (ix2 (2 : Fin 3) (0 : Fin 3)) :=
  ent_at A _ _ _ 2 0 rfl rfl
theorem a21 (A : S3x3.Idx → EReal) :
    extractAt ![0, 0] (extractStridedSlice S1x1 ![2, 1] A slices_S3x3_o2_1_S1x1) inpos_S1x1_p0_0 = A (ix2 (2 : Fin 3) (1 : Fin 3)) :=
  ent_at A _ _ _ 2 1 rfl rfl
theorem a22 (A : S3x3.Idx → EReal) :
    extractAt ![0, 0] (extractStridedSlice S1x1 ![2, 2] A slices_S3x3_o2_2_S1x1) inpos_S1x1_p0_0 = A (ix2 (2 : Fin 3) (2 : Fin 3)) :=
  ent_at A _ _ _ 2 2 rfl rfl

/-! ## The gates -/

/-- A branch's gate at row `p`: the logistic function of the row's logit. -/
theorem gate_at (y : FVec Ideal S4096x64 .f32) (w : Vec Ideal S1x64 .f32) (hφ : FKind.Formats .f32)
    (hacc : (0x00000000#32 : BitVec FTy.f32.bits) = FKind.add.neutral .f32 hφ) (p : Fin 4096) :
    logistic (shapeCast S4096x1 (multiReduction .add [1] S4096 (mulf y (broadcastTo S4096x64 w broadcasts_S1x64_S4096x64)) 0x00000000#32
        reduces_S4096x64_S4096 hφ hacc) shapeCasts_S4096_S4096x1) (ix2 p (0 : Fin 1))
      = gate (logit (n := 4096) y w p) := by
  show Ideal.logistic (shapeCast S4096x1 (multiReduction .add [1] S4096 (mulf y (broadcastTo S4096x64 w broadcasts_S1x64_S4096x64)) 0x00000000#32
        reduces_S4096x64_S4096 hφ hacc) shapeCasts_S4096_S4096x1 (ix2 p (0 : Fin 1))) = _
  rw [colCast_at]
  refine congrArg gate ((rowSum_at _ hφ hacc p).trans ?_)
  unfold logit
  refine Finset.sum_congr rfl fun k _ => ?_
  show y (ix2 p k) * broadcastTo S4096x64 w broadcasts_S1x64_S4096x64 (ix2 p k) = _
  rw [broadcastTo_1b_ab_apply]

theorem pay5_at (x0 x3 : Vec Ideal S4096x64 .f32) (w : Vec Ideal S1x64 .f32) (p : Fin 4096) :
    k1_pay5 x0 x3 w (ix2 p (0 : Fin 1)) = gate (logit (n := 4096) (fun i => x0 i + x3 i) w p) := by
  unfold k1_pay5 k1_pay3
  rw [shapeCast_self, shapeCast_self]
  exact gate_at _ w _ _ p

theorem pay6_at (x1 x4 : Vec Ideal S4096x64 .f32) (w : Vec Ideal S1x64 .f32) (p : Fin 4096) :
    k1_pay6 x1 x4 w (ix2 p (0 : Fin 1)) = gate (logit (n := 4096) (fun i => x1 i - x4 i) w p) := by
  unfold k1_pay6 k1_pay4
  rw [shapeCast_self, shapeCast_self]
  exact gate_at _ w _ _ p

theorem pay7_at (x2 : Vec Ideal S4096x64 .f32) (w : Vec Ideal S1x64 .f32) (p : Fin 4096) :
    k1_pay7 x2 w (ix2 p (0 : Fin 1)) = gate (logit (n := 4096) x2 w p) := by
  unfold k1_pay7 k1_pay2
  rw [shapeCast_self]
  exact gate_at _ w _ _ p

/-! ## The scores -/

theorem pay10_at (g0 g1 g2 : FVec Ideal S4096x1 .f32) (A : Vec Ideal S3x3 .f32) (j : S4096x1.Idx) :
    k1_pay10 g1 g2 A (mulf g0 (broadcast S4096x1 (extractAt ![0, 0] (extractStridedSlice S1x1 ![0, 0] A slices_S3x3_o0_0_S1x1) inpos_S1x1_p0_0)))
        (k1_pay9 A) j
      = score (g0 j) (g1 j) (g2 j) A 0 := by
  unfold k1_pay10 k1_pay9 score
  show Ideal.div ((g0 j * extractAt ![0, 0] (extractStridedSlice S1x1 ![0, 0] A slices_S3x3_o0_0_S1x1) inpos_S1x1_p0_0
      + g1 j * extractAt ![0, 0] (extractStridedSlice S1x1 ![0, 1] A slices_S3x3_o0_1_S1x1) inpos_S1x1_p0_0)
      + g2 j * extractAt ![0, 0] (extractStridedSlice S1x1 ![0, 2] A slices_S3x3_o0_2_S1x1) inpos_S1x1_p0_0) w3 = _
  rw [a00, a01, a02]

theorem pay11_at (g0 g1 g2 : FVec Ideal S4096x1 .f32) (A : Vec Ideal S3x3 .f32) (j : S4096x1.Idx) :
    k1_pay11 g0 g1 g2 A j = score (g0 j) (g1 j) (g2 j) A 1 := by
  unfold k1_pay11 score
  show Ideal.div ((g0 j * extractAt ![0, 0] (extractStridedSlice S1x1 ![1, 0] A slices_S3x3_o1_0_S1x1) inpos_S1x1_p0_0
      + g1 j * extractAt ![0, 0] (extractStridedSlice S1x1 ![1, 1] A slices_S3x3_o1_1_S1x1) inpos_S1x1_p0_0)
      + g2 j * extractAt ![0, 0] (extractStridedSlice S1x1 ![1, 2] A slices_S3x3_o1_2_S1x1) inpos_S1x1_p0_0) w3 = _
  rw [a10, a11, a12]

theorem pay12_at (g0 g1 g2 : FVec Ideal S4096x1 .f32) (A : Vec Ideal S3x3 .f32) (j : S4096x1.Idx) :
    k1_pay12 g0 g1 g2 A j = score (g0 j) (g1 j) (g2 j) A 2 := by
  unfold k1_pay12 score
  show Ideal.div ((g0 j * extractAt ![0, 0] (extractStridedSlice S1x1 ![2, 0] A slices_S3x3_o2_0_S1x1) inpos_S1x1_p0_0
      + g1 j * extractAt ![0, 0] (extractStridedSlice S1x1 ![2, 1] A slices_S3x3_o2_1_S1x1) inpos_S1x1_p0_0)
      + g2 j * extractAt ![0, 0] (extractStridedSlice S1x1 ![2, 2] A slices_S3x3_o2_2_S1x1) inpos_S1x1_p0_0) w3 = _
  rw [a20, a21, a22]

/-! ## The softmax weights: entry by entry on one-column arrays -/

theorem att0_at (g0 g1 g2 : FVec Ideal S4096x1 .f32) (A : Vec Ideal S3x3 .f32) (v34 v37 : FVec Ideal S4096x1 .f32) (j : S4096x1.Idx) :
    divf (k1_pay14 g0 g1 g2 A v34 v37) (k1_pay17 g0 g1 g2 A v34 v37) j
      = Ideal.div (expo (k1_pay10 g1 g2 A v34 v37 j) (k1_pay10 g1 g2 A v34 v37 j) (k1_pay11 g0 g1 g2 A j) (k1_pay12 g0 g1 g2 A j))
          ((expo (k1_pay10 g1 g2 A v34 v37 j) (k1_pay10 g1 g2 A v34 v37 j) (k1_pay11 g0 g1 g2 A j) (k1_pay12 g0 g1 g2 A j)
            + expo (k1_pay11 g0 g1 g2 A j) (k1_pay10 g1 g2 A v34 v37 j) (k1_pay11 g0 g1 g2 A j) (k1_pay12 g0 g1 g2 A j))
            + expo (k1_pay12 g0 g1 g2 A j) (k1_pay10 g1 g2 A v34 v37 j) (k1_pay11 g0 g1 g2 A j) (k1_pay12 g0 g1 g2 A j)) := by
  unfold k1_pay17 k1_pay16 k1_pay15 k1_pay14 k1_pay13 expo
  rfl

theorem att1_at (g0 g1 g2 : FVec Ideal S4096x1 .f32) (A : Vec Ideal S3x3 .f32) (v34 v37 : FVec Ideal S4096x1 .f32) (j : S4096x1.Idx) :
    divf (k1_pay15 g0 g1 g2 A v34 v37) (k1_pay17 g0 g1 g2 A v34 v37) j
      = Ideal.div (expo (k1_pay11 g0 g1 g2 A j) (k1_pay10 g1 g2 A v34 v37 j) (k1_pay11 g0 g1 g2 A j) (k1_pay12 g0 g1 g2 A j))
          ((expo (k1_pay10 g1 g2 A v34 v37 j) (k1_pay10 g1 g2 A v34 v37 j) (k1_pay11 g0 g1 g2 A j) (k1_pay12 g0 g1 g2 A j)
            + expo (k1_pay11 g0 g1 g2 A j) (k1_pay10 g1 g2 A v34 v37 j) (k1_pay11 g0 g1 g2 A j) (k1_pay12 g0 g1 g2 A j))
            + expo (k1_pay12 g0 g1 g2 A j) (k1_pay10 g1 g2 A v34 v37 j) (k1_pay11 g0 g1 g2 A j) (k1_pay12 g0 g1 g2 A j)) := by
  unfold k1_pay17 k1_pay16 k1_pay15 k1_pay14 k1_pay13 expo
  rfl

theorem att2_at (g0 g1 g2 : FVec Ideal S4096x1 .f32) (A : Vec Ideal S3x3 .f32) (v34 v37 : FVec Ideal S4096x1 .f32) (j : S4096x1.Idx) :
    divf (k1_pay16 g0 g1 g2 A v34 v37) (k1_pay17 g0 g1 g2 A v34 v37) j
      = Ideal.div (expo (k1_pay12 g0 g1 g2 A j) (k1_pay10 g1 g2 A v34 v37 j) (k1_pay11 g0 g1 g2 A j) (k1_pay12 g0 g1 g2 A j))
          ((expo (k1_pay10 g1 g2 A v34 v37 j) (k1_pay10 g1 g2 A v34 v37 j) (k1_pay11 g0 g1 g2 A j) (k1_pay12 g0 g1 g2 A j)
            + expo (k1_pay11 g0 g1 g2 A j) (k1_pay10 g1 g2 A v34 v37 j) (k1_pay11 g0 g1 g2 A j) (k1_pay12 g0 g1 g2 A j))
            + expo (k1_pay12 g0 g1 g2 A j) (k1_pay10 g1 g2 A v34 v37 j) (k1_pay11 g0 g1 g2 A j) (k1_pay12 g0 g1 g2 A j)) := by
  unfold k1_pay17 k1_pay16 k1_pay15 k1_pay14 k1_pay13 expo
  rfl

/-! ## The body's result at an entry -/

/-- The stored block at `(p, q)` is the attention stage of the block's rows. -/
theorem out_at (x0 x1 x2 x3 x4 : Vec Ideal S4096x64 .f32) (w5 w6 w7 : Vec Ideal S1x64 .f32) (A : Vec Ideal S3x3 .f32)
    (p : Fin 4096) (q : Fin 64) :
    k1_pay1 (k1_pay2 x2) (k1_pay4 x1 x4)
        (k1_pay18 (k1_pay5 x0 x3 w5) (k1_pay6 x1 x4 w6) (k1_pay7 x2 w7) A (k1_pay8 x0 x3 w5 A) (k1_pay9 A))
        (k1_pay19 (k1_pay3 x0 x3) (k1_pay5 x0 x3 w5) (k1_pay6 x1 x4 w6) (k1_pay7 x2 w7) A (k1_pay8 x0 x3 w5 A) (k1_pay9 A))
        (k1_pay20 (k1_pay5 x0 x3 w5) (k1_pay6 x1 x4 w6) (k1_pay7 x2 w7) A (k1_pay8 x0 x3 w5 A) (k1_pay9 A)) (ix2 p q)
      = mixAtRow (n := 4096) (fun i => x0 i + x3 i) (fun i => x1 i - x4 i) x2 w5 w6 w7 A p q := by
  unfold k1_pay1 k1_pay18 k1_pay19 k1_pay20
  show w3 * ((broadcastTo S4096x64 (divf (k1_pay14 (k1_pay5 x0 x3 w5) (k1_pay6 x1 x4 w6) (k1_pay7 x2 w7) A (k1_pay8 x0 x3 w5 A) (k1_pay9 A))
            (k1_pay17 (k1_pay5 x0 x3 w5) (k1_pay6 x1 x4 w6) (k1_pay7 x2 w7) A (k1_pay8 x0 x3 w5 A) (k1_pay9 A))) broadcasts_S4096x1_S4096x64 (ix2 p q)
          * k1_pay3 x0 x3 (ix2 p q)
        + broadcastTo S4096x64 (divf (k1_pay15 (k1_pay5 x0 x3 w5) (k1_pay6 x1 x4 w6) (k1_pay7 x2 w7) A (k1_pay8 x0 x3 w5 A) (k1_pay9 A))
            (k1_pay17 (k1_pay5 x0 x3 w5) (k1_pay6 x1 x4 w6) (k1_pay7 x2 w7) A (k1_pay8 x0 x3 w5 A) (k1_pay9 A))) broadcasts_S4096x1_S4096x64 (ix2 p q)
          * k1_pay4 x1 x4 (ix2 p q))
        + broadcastTo S4096x64 (divf (k1_pay16 (k1_pay5 x0 x3 w5) (k1_pay6 x1 x4 w6) (k1_pay7 x2 w7) A (k1_pay8 x0 x3 w5 A) (k1_pay9 A))
            (k1_pay17 (k1_pay5 x0 x3 w5) (k1_pay6 x1 x4 w6) (k1_pay7 x2 w7) A (k1_pay8 x0 x3 w5 A) (k1_pay9 A))) broadcasts_S4096x1_S4096x64 (ix2 p q)
          * k1_pay2 x2 (ix2 p q)) = _
  rw [Block0.bcastCol_at, Block0.bcastCol_at, Block0.bcastCol_at, att0_at, att1_at, att2_at]
  have e10 : k1_pay10 (k1_pay6 x1 x4 w6) (k1_pay7 x2 w7) A (k1_pay8 x0 x3 w5 A) (k1_pay9 A) (ix2 p (0 : Fin 1))
      = score (gate (logit (n := 4096) (fun i => x0 i + x3 i) w5 p)) (gate (logit (n := 4096) (fun i => x1 i - x4 i) w6 p))
          (gate (logit (n := 4096) x2 w7 p)) A 0 := by
    rw [← pay5_at, ← pay6_at, ← pay7_at]
    exact pay10_at (k1_pay5 x0 x3 w5) (k1_pay6 x1 x4 w6) (k1_pay7 x2 w7) A (ix2 p (0 : Fin 1))
  have e11 : k1_pay11 (k1_pay5 x0 x3 w5) (k1_pay6 x1 x4 w6) (k1_pay7 x2 w7) A (ix2 p (0 : Fin 1))
      = score (gate (logit (n := 4096) (fun i => x0 i + x3 i) w5 p)) (gate (logit (n := 4096) (fun i => x1 i - x4 i) w6 p))
          (gate (logit (n := 4096) x2 w7 p)) A 1 := by
    rw [pay11_at, pay5_at, pay6_at, pay7_at]
  have e12 : k1_pay12 (k1_pay5 x0 x3 w5) (k1_pay6 x1 x4 w6) (k1_pay7 x2 w7) A (ix2 p (0 : Fin 1))
      = score (gate (logit (n := 4096) (fun i => x0 i + x3 i) w5 p)) (gate (logit (n := 4096) (fun i => x1 i - x4 i) w6 p))
          (gate (logit (n := 4096) x2 w7 p)) A 2 := by
    rw [pay12_at, pay5_at, pay6_at, pay7_at]
  rw [e10, e11, e12]
  unfold mixAtRow mixAt k1_pay3 k1_pay4 k1_pay2
  rw [shapeCast_self, shapeCast_self, shapeCast_self, shapeCast_self, shapeCast_self]
  rfl

end Cert.Sage.Block1

end
-- ==== Proof.Arr1.lean ====
/-
  From the second kernel's blocks to its result array.

  Grid point `t` works on rows `4096·t … 4096·t + 4095` of the five branch inputs and of the result; the three attention
  rows and the 3×3 mixer are fetched whole at every point.  An entry of the attention stage depends only on its own row,
  so what point `t` writes back is the restriction of the whole-array stage to its rows, and the sixteen points cover
  the array.
-/
import proofs.«175057_j62878321213496_2_alg».proof.Proof.Gen.KernelIdeal.Frame
import proofs.«175057_j62878321213496_2_alg».proof.Proof.Spec
import proofs.«175057_j62878321213496_2_alg».proof.Proof.Block1
import Idealize.ShloMosaic.Lib.Pipeline.Value
import Idealize.ShloMosaic.Lib.ValueIdx

set_option maxRecDepth 16384

noncomputable section

namespace Cert.Sage.Arr1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Entrywise sum and difference of two arrays: the low branch is `self_lo + mean_lo`, the high branch `self_hi - mean_hi`. -/
def addArr (a b : S65536x64.Idx → EReal) : S65536x64.Idx → EReal := fun i => a i + b i
def subArr (a b : S65536x64.Idx → EReal) : S65536x64.Idx → EReal := fun i => a i - b i

theorem hz : (![0, 0] : Fin 2 → Nat) = fun _ => 0 := funext fun a => by fin_cases a <;> rfl

/-- The printed index maps, decided over the sixteen grid points. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- The array row that row `p` of point `t`'s block is. -/
def rowOf (t : Fin cfg1.N) (p : Fin 4096) : Fin 65536 :=
  ⟨t.val * 4096 + p.val, by
    have ht := t.isLt
    have hN : cfg1.N = 16 := N_1
    have hp := p.isLt
    omega⟩

/-- Input window 0's block at a point is the array's rows of that point. -/
theorem rows0 (c : Dev nD) (t : Fin cfg1.N) (p : Fin 4096) (k : Fin 64) :
    iblk1 V c 0 t (ix2 p k) = V c main_v5_0 (ix2 (rowOf t p) k) := by
  have f := idx_facts t
  show V c main_v5_0 (((cfg1.win 0).blk t).view.emb (ix2 p k)) = _
  refine congrArg (V c main_v5_0) (funext fun a => Fin.ext ?_)
  match a with
  | ⟨0, _⟩ => show win1_0.index t (0 : Fin 2) * 4096 + 1 * p.val = t.val * 4096 + p.val; omega
  | ⟨1, _⟩ => show win1_0.index t (1 : Fin 2) * 64 + 1 * k.val = k.val; omega

/-- Input window 1's block at a point is the array's rows of that point. -/
theorem rows1 (c : Dev nD) (t : Fin cfg1.N) (p : Fin 4096) (k : Fin 64) :
    iblk1 V c 1 t (ix2 p k) = V c main_v5_1 (ix2 (rowOf t p) k) := by
  have f := idx_facts t
  show V c main_v5_1 (((cfg1.win 1).blk t).view.emb (ix2 p k)) = _
  refine congrArg (V c main_v5_1) (funext fun a => Fin.ext ?_)
  match a with
  | ⟨0, _⟩ => show win1_1.index t (0 : Fin 2) * 4096 + 1 * p.val = t.val * 4096 + p.val; omega
  | ⟨1, _⟩ => show win1_1.index t (1 : Fin 2) * 64 + 1 * k.val = k.val; omega

/-- Input window 2's block at a point is the array's rows of that point. -/
theorem rows2 (c : Dev nD) (t : Fin cfg1.N) (p : Fin 4096) (k : Fin 64) :
    iblk1 V c 2 t (ix2 p k) = V c main_v5_2 (ix2 (rowOf t p) k) := by
  have f := idx_facts t
  show V c main_v5_2 (((cfg1.win 2).blk t).view.emb (ix2 p k)) = _
  refine congrArg (V c main_v5_2) (funext fun a => Fin.ext ?_)
  match a with
  | ⟨0, _⟩ => show win1_2.index t (0 : Fin 2) * 4096 + 1 * p.val = t.val * 4096 + p.val; omega
  | ⟨1, _⟩ => show win1_2.index t (1 : Fin 2) * 64 + 1 * k.val = k.val; omega

/-- Input window 3's block at a point is the array's rows of that point. -/
theorem rows3 (c : Dev nD) (t : Fin cfg1.N) (p : Fin 4096) (k : Fin 64) :
    iblk1 V c 3 t (ix2 p k) = V c main_v36 (ix2 (rowOf t p) k) := by
  have f := idx_facts t
  show V c main_v36 (((cfg1.win 3).blk t).view.emb (ix2 p k)) = _
  refine congrArg (V c main_v36) (funext fun a => Fin.ext ?_)
  match a with
  | ⟨0, _⟩ => show win1_3.index t (0 : Fin 2) * 4096 + 1 * p.val = t.val * 4096 + p.val; omega
  | ⟨1, _⟩ => show win1_3.index t (1 : Fin 2) * 64 + 1 * k.val = k.val; omega

/-- Input window 4's block at a point is the array's rows of that point. -/
theorem rows4 (c : Dev nD) (t : Fin cfg1.N) (p : Fin 4096) (k : Fin 64) :
    iblk1 V c 4 t (ix2 p k) = V c main_v39 (ix2 (rowOf t p) k) := by
  have f := idx_facts t
  show V c main_v39 (((cfg1.win 4).blk t).view.emb (ix2 p k)) = _
  refine congrArg (V c main_v39) (funext fun a => Fin.ext ?_)
  match a with
  | ⟨0, _⟩ => show win1_4.index t (0 : Fin 2) * 4096 + 1 * p.val = t.val * 4096 + p.val; omega
  | ⟨1, _⟩ => show win1_4.index t (1 : Fin 2) * 64 + 1 * k.val = k.val; omega

/-- Window 5 is fetched whole: its block at any point is the array. -/
theorem whole5 (c : Dev nD) (t : Fin cfg1.N) : (iblk1 V c 5 t : S1x64.Idx → EReal) = V c main_arg14 := by
  have f := idx_facts t
  funext y
  show V c main_arg14 (((cfg1.win 5).blk t).view.emb y) = _
  refine congrArg (V c main_arg14) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Window 6 is fetched whole: its block at any point is the array. -/
theorem whole6 (c : Dev nD) (t : Fin cfg1.N) : (iblk1 V c 6 t : S1x64.Idx → EReal) = V c main_arg15 := by
  have f := idx_facts t
  funext y
  show V c main_arg15 (((cfg1.win 6).blk t).view.emb y) = _
  refine congrArg (V c main_arg15) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- Window 7 is fetched whole: its block at any point is the array. -/
theorem whole7 (c : Dev nD) (t : Fin cfg1.N) : (iblk1 V c 7 t : S1x64.Idx → EReal) = V c main_arg16 := by
  have f := idx_facts t
  funext y
  show V c main_arg16 (((cfg1.win 7).blk t).view.emb y) = _
  refine congrArg (V c main_arg16) (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- Window 8 is fetched whole: its block at any point is the array. -/
theorem whole8 (c : Dev nD) (t : Fin cfg1.N) : (iblk1 V c 8 t : S3x3.Idx → EReal) = V c main_arg17 := by
  have f := idx_facts t
  funext y
  show V c main_arg17 (((cfg1.win 8).blk t).view.emb y) = _
  refine congrArg (V c main_arg17) (funext fun a => Fin.ext ?_)
  match a with
  | ⟨0, _⟩ => show win1_8.index t (0 : Fin 2) * 3 + 1 * (y 0).val = (y 0).val; omega
  | ⟨1, _⟩ => show win1_8.index t (1 : Fin 2) * 3 + 1 * (y 1).val = (y 1).val; omega

/-! ## The result window -/

/-- The result block's entry `(p, q)` at point `t` is the array's entry `(rowOf t p, q)`. -/
theorem emb9 (t : Fin cfg1.N) (p : Fin 4096) (q : Fin 64) :
    ((cfg1.win 9).blk t).view.emb (ix2 p q) = ix2 (rowOf t p) q := by
  have f := idx_facts t
  funext a
  apply Fin.ext
  match a with
  | ⟨0, _⟩ => show win1_9.index t (0 : Fin 2) * 4096 + 1 * p.val = t.val * 4096 + p.val; omega
  | ⟨1, _⟩ => show win1_9.index t (1 : Fin 2) * 64 + 1 * q.val = q.val; omega

/-- What point `t` writes back is block `t` of the whole-array attention stage. -/
theorem flushed9_eq (c : Dev nD) (t : Fin cfg1.N) :
    (dat1 V c).flushed 9 t = ((cfg1.win 9).blk t).view.read (Elt Ideal) (fun i => mixAtRow (n := 65536) (addArr (V c main_v5_0) (V c main_v36)) (subArr (V c main_v5_1) (V c main_v39)) (V c main_v5_2)
      (V c main_arg14) (V c main_arg15) (V c main_arg16) (V c main_arg17) (i 0) (i 1)) := by
  show (cfg1.win 9).cut (grid1.coords t) ((dat1 V c).after 9 t) = _
  rw [after1_9]
  unfold out1_9
  rw [View.canon_unit_zero hz]
  simp only [View.ld_unit_zero (S := S4096x64) hz, View.ld_unit_zero (S := S1x64) hz, View.ld_unit_zero (S := S3x3) hz]
  funext j
  obtain ⟨p, q, rfl⟩ : ∃ (p : Fin 4096) (q : Fin 64), j = ix2 p q := ⟨j 0, j 1, eq_ix2 j⟩
  show (k1_pay1 (k1_pay2 (iblk1 V c 2 t)) (k1_pay4 (iblk1 V c 1 t) (iblk1 V c 4 t))
      (k1_pay18 (k1_pay5 (iblk1 V c 0 t) (iblk1 V c 3 t) (iblk1 V c 5 t)) (k1_pay6 (iblk1 V c 1 t) (iblk1 V c 4 t) (iblk1 V c 6 t)) (k1_pay7 (iblk1 V c 2 t) (iblk1 V c 7 t)) (iblk1 V c 8 t) (k1_pay8 (iblk1 V c 0 t) (iblk1 V c 3 t) (iblk1 V c 5 t) (iblk1 V c 8 t)) (k1_pay9 (iblk1 V c 8 t)))
      (k1_pay19 (k1_pay3 (iblk1 V c 0 t) (iblk1 V c 3 t)) (k1_pay5 (iblk1 V c 0 t) (iblk1 V c 3 t) (iblk1 V c 5 t)) (k1_pay6 (iblk1 V c 1 t) (iblk1 V c 4 t) (iblk1 V c 6 t)) (k1_pay7 (iblk1 V c 2 t) (iblk1 V c 7 t)) (iblk1 V c 8 t) (k1_pay8 (iblk1 V c 0 t) (iblk1 V c 3 t) (iblk1 V c 5 t) (iblk1 V c 8 t)) (k1_pay9 (iblk1 V c 8 t)))
      (k1_pay20 (k1_pay5 (iblk1 V c 0 t) (iblk1 V c 3 t) (iblk1 V c 5 t)) (k1_pay6 (iblk1 V c 1 t) (iblk1 V c 4 t) (iblk1 V c 6 t)) (k1_pay7 (iblk1 V c 2 t) (iblk1 V c 7 t)) (iblk1 V c 8 t) (k1_pay8 (iblk1 V c 0 t) (iblk1 V c 3 t) (iblk1 V c 5 t) (iblk1 V c 8 t)) (k1_pay9 (iblk1 V c 8 t)))) (ix2 p q)
    = (fun i => mixAtRow (n := 65536) (addArr (V c main_v5_0) (V c main_v36)) (subArr (V c main_v5_1) (V c main_v39)) (V c main_v5_2)
      (V c main_arg14) (V c main_arg15) (V c main_arg16) (V c main_arg17) (i 0) (i 1)) (((cfg1.win 9).blk t).view.emb (ix2 p q))
  rw [emb9]
  refine (Block1.out_at (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  show _ = mixAtRow (n := 65536) (addArr (V c main_v5_0) (V c main_v36)) (subArr (V c main_v5_1) (V c main_v39)) (V c main_v5_2)
      (V c main_arg14) (V c main_arg15) (V c main_arg16) (V c main_arg17) (rowOf t p) q
  rw [whole5 V c t, whole6 V c t, whole7 V c t, whole8 V c t]
  refine mixAtRow_congr _ _ _ _ _ _ _ _ _ _ p (rowOf t p) q (fun k => ?_) (fun k => ?_) (fun k => rows2 V c t p k)
  · exact congrArg₂ (fun a b : EReal => a + b) (rows0 V c t p k) (rows3 V c t p k)
  · exact congrArg₂ (fun a b : EReal => a - b) (rows1 V c t p k) (rows4 V c t p k)

/-- Every entry of the array lies in some point's block: row `r` in block `r / 4096`. -/
theorem cover9 (i : S65536x64.Idx) : ∃ t : Fin cfg1.N, (cfg1.win 9).flush t = true ∧ i ∈ ((cfg1.win 9).blk t).view.set := by
  have hi0 : (i 0).val < 65536 := (i 0).isLt
  have hi1 : (i 1).val < 64 := (i 1).isLt
  let t : Fin cfg1.N := ⟨(i 0).val / 4096, by rw [show cfg1.N = 16 from N_1]; omega⟩
  have f := idx_facts t
  refine ⟨t, flush1_9 t, ?_⟩
  show i ∈ ((View.whole main_v40).slice (win1_9.rect t)).set
  rw [View.set_slice_whole, Rect.mem_set_unit]
  intro a
  match a with
  | ⟨0, _⟩ => show win1_9.index t (0 : Fin 2) * 4096 ≤ (i 0).val ∧ (i 0).val < win1_9.index t (0 : Fin 2) * 4096 + 4096
              have ht : t.val = (i 0).val / 4096 := rfl
              omega
  | ⟨1, _⟩ => show win1_9.index t (1 : Fin 2) * 64 ≤ (i 1).val ∧ (i 1).val < win1_9.index t (1 : Fin 2) * 64 + 64
              omega

/-- The result array after the region. -/
theorem arr9 (c : Dev nD) :
    (dat1 V c).arrAt 9 cfg1.N = (fun i => mixAtRow (n := 65536) (addArr (V c main_v5_0) (V c main_v36)) (subArr (V c main_v5_1) (V c main_v39)) (V c main_v5_2)
      (V c main_arg14) (V c main_arg15) (V c main_arg16) (V c main_arg17) (i 0) (i 1)) :=
  (dat1 V c).arrAt_eq_of_cover 9 _ (fun t _ => flushed9_eq V c t) (cover9)

end Cert.Sage.Arr1

end
-- ==== Proof.KHost0.lean ====
/-
  What the first kernel finds when it is entered, and what the host stretch after it reads.

  Before the first kernel the host only reshapes the five bias vectors into one-row arrays; the argument arrays are as
  launched.  After it, its five result arrays hold what its blocks wrote back, and the edge arrays are still as launched.
-/
import proofs.«175057_j62878321213496_2_alg».proof.Proof.Gen.KernelIdeal.Frame
import proofs.«175057_j62878321213496_2_alg».proof.Proof.Spec
import Idealize.ShloMosaic.Lib.StableHlo.Run
import Idealize.ShloMosaic.Lib.ValueIdx
import Idealize.ShloMosaic.Lib.ValueLayout
import Idealize.ShloMosaic.PureOps.Ideal

noncomputable section

namespace Cert.Sage.KHost0

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

theorem V1_arg0 (c : Dev nD) : (V1 m ρ c main_arg0 : S65536x64.Idx → EReal) = m ((c : Thread nD τ).loc main_arg0) := by
  dsimp only [V1, W1, hostOps0]
  after_results

theorem V1_arg1 (c : Dev nD) : (V1 m ρ c main_arg1 : S65536x1.Idx → EReal) = m ((c : Thread nD τ).loc main_arg1) := by
  dsimp only [V1, W1, hostOps0]
  after_results

theorem V1_arg4 (c : Dev nD) : (V1 m ρ c main_arg4 : S64x64.Idx → EReal) = m ((c : Thread nD τ).loc main_arg4) := by
  dsimp only [V1, W1, hostOps0]
  after_results

theorem V1_arg6 (c : Dev nD) : (V1 m ρ c main_arg6 : S64x64.Idx → EReal) = m ((c : Thread nD τ).loc main_arg6) := by
  dsimp only [V1, W1, hostOps0]
  after_results

theorem V1_arg8 (c : Dev nD) : (V1 m ρ c main_arg8 : S64x64.Idx → EReal) = m ((c : Thread nD τ).loc main_arg8) := by
  dsimp only [V1, W1, hostOps0]
  after_results

theorem V1_arg10 (c : Dev nD) : (V1 m ρ c main_arg10 : S64x64.Idx → EReal) = m ((c : Thread nD τ).loc main_arg10) := by
  dsimp only [V1, W1, hostOps0]
  after_results

theorem V1_arg12 (c : Dev nD) : (V1 m ρ c main_arg12 : S64x64.Idx → EReal) = m ((c : Thread nD τ).loc main_arg12) := by
  dsimp only [V1, W1, hostOps0]
  after_results

theorem V1_bias0 (c : Dev nD) : (V1 m ρ c main_v0 : S1x64.Idx → EReal) = biasRow (m ((c : Thread nD τ).loc main_arg5)) := by
  dsimp only [V1, W1, hostOps0]
  after_results
  funext i
  obtain ⟨u, j, rfl⟩ : ∃ (u : Fin 1) (j : Fin 64), i = ix2 u j := ⟨i 0, i 1, eq_ix2 i⟩
  exact shapeCast_a_1a_apply (a := 64) (m ((c : Thread nD τ).loc main_arg5)) shapeCasts_S64_S1x64 u j

theorem V1_bias1 (c : Dev nD) : (V1 m ρ c main_v1 : S1x64.Idx → EReal) = biasRow (m ((c : Thread nD τ).loc main_arg7)) := by
  dsimp only [V1, W1, hostOps0]
  after_results
  funext i
  obtain ⟨u, j, rfl⟩ : ∃ (u : Fin 1) (j : Fin 64), i = ix2 u j := ⟨i 0, i 1, eq_ix2 i⟩
  exact shapeCast_a_1a_apply (a := 64) (m ((c : Thread nD τ).loc main_arg7)) shapeCasts_S64_S1x64 u j

theorem V1_bias2 (c : Dev nD) : (V1 m ρ c main_v2 : S1x64.Idx → EReal) = biasRow (m ((c : Thread nD τ).loc main_arg9)) := by
  dsimp only [V1, W1, hostOps0]
  after_results
  funext i
  obtain ⟨u, j, rfl⟩ : ∃ (u : Fin 1) (j : Fin 64), i = ix2 u j := ⟨i 0, i 1, eq_ix2 i⟩
  exact shapeCast_a_1a_apply (a := 64) (m ((c : Thread nD τ).loc main_arg9)) shapeCasts_S64_S1x64 u j

theorem V1_bias3 (c : Dev nD) : (V1 m ρ c main_v3 : S1x64.Idx → EReal) = biasRow (m ((c : Thread nD τ).loc main_arg11)) := by
  dsimp only [V1, W1, hostOps0]
  after_results
  funext i
  obtain ⟨u, j, rfl⟩ : ∃ (u : Fin 1) (j : Fin 64), i = ix2 u j := ⟨i 0, i 1, eq_ix2 i⟩
  exact shapeCast_a_1a_apply (a := 64) (m ((c : Thread nD τ).loc main_arg11)) shapeCasts_S64_S1x64 u j

theorem V1_bias4 (c : Dev nD) : (V1 m ρ c main_v4 : S1x64.Idx → EReal) = biasRow (m ((c : Thread nD τ).loc main_arg13)) := by
  dsimp only [V1, W1, hostOps0]
  after_results
  funext i
  obtain ⟨u, j, rfl⟩ : ∃ (u : Fin 1) (j : Fin 64), i = ix2 u j := ⟨i 0, i 1, eq_ix2 i⟩
  exact shapeCast_a_1a_apply (a := 64) (m ((c : Thread nD τ).loc main_arg13)) shapeCasts_S64_S1x64 u j

theorem W2_MsgLo (c : Dev nD) : W2 m ρ c (Proc.devRef .tc main_v5_3) = (dat0 (V1 m ρ) c).arrAt 15 cfg0.N := W2_arr m ρ c 15

theorem W2_MsgHi (c : Dev nD) : W2 m ρ c (Proc.devRef .tc main_v5_4) = (dat0 (V1 m ρ) c).arrAt 16 cfg0.N := W2_arr m ρ c 16

theorem W2_arg2 (c : Dev nD) : (W2 m ρ c (Proc.devRef .tc main_arg2) : (⟨S1048576, .i32⟩ : BufTy).Contents (Elt Ideal)) = m ((c : Thread nD τ).loc main_arg2) := by
  refine (W2_of_ne m ρ c main_arg2 (by decide)).trans ?_
  dsimp only [W1, hostOps0]
  after_results

theorem W2_arg3 (c : Dev nD) : (W2 m ρ c (Proc.devRef .tc main_arg3) : (⟨S1048576, .i32⟩ : BufTy).Contents (Elt Ideal)) = m ((c : Thread nD τ).loc main_arg3) := by
  refine (W2_of_ne m ρ c main_arg3 (by decide)).trans ?_
  dsimp only [W1, hostOps0]
  after_results

end Cert.Sage.KHost0

end
-- ==== Proof.KHost1.lean ====
/-
  What the second kernel finds when it is entered, apart from the two mean arrays: the first kernel's three self
  results, untouched by the host stretch between the kernels, and the attention arguments, as launched.
-/
import proofs.«175057_j62878321213496_2_alg».proof.Proof.Gen.KernelIdeal.Frame
import proofs.«175057_j62878321213496_2_alg».proof.Proof.Spec
import Idealize.ShloMosaic.Lib.StableHlo.Run
import Idealize.ShloMosaic.Lib.ValueIdx
import Idealize.ShloMosaic.Lib.ValueLayout
import Idealize.ShloMosaic.PureOps.Ideal

noncomputable section

namespace Cert.Sage.KHost1

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

theorem V3_self0 (c : Dev nD) : (V3 m ρ c main_v5_0 : S65536x64.Idx → EReal) = (dat0 (V1 m ρ) c).arrAt 12 cfg0.N := by
  refine Eq.trans ?_ (W2_arr m ρ c 12)
  dsimp only [V3, W3, hostOps1]
  after_results

theorem V3_self1 (c : Dev nD) : (V3 m ρ c main_v5_1 : S65536x64.Idx → EReal) = (dat0 (V1 m ρ) c).arrAt 13 cfg0.N := by
  refine Eq.trans ?_ (W2_arr m ρ c 13)
  dsimp only [V3, W3, hostOps1]
  after_results

theorem V3_self2 (c : Dev nD) : (V3 m ρ c main_v5_2 : S65536x64.Idx → EReal) = (dat0 (V1 m ρ) c).arrAt 14 cfg0.N := by
  refine Eq.trans ?_ (W2_arr m ρ c 14)
  dsimp only [V3, W3, hostOps1]
  after_results

theorem V3_arg14 (c : Dev nD) : (V3 m ρ c main_arg14 : S1x64.Idx → EReal) = m ((c : Thread nD τ).loc main_arg14) := by
  have h3 : (V3 m ρ c main_arg14 : S1x64.Idx → EReal) = W2 m ρ c (Proc.devRef .tc main_arg14) := by
    dsimp only [V3, W3, hostOps1]
    after_results
  refine h3.trans ((W2_of_ne m ρ c main_arg14 (by decide)).trans ?_)
  dsimp only [W1, hostOps0]
  after_results

theorem V3_arg15 (c : Dev nD) : (V3 m ρ c main_arg15 : S1x64.Idx → EReal) = m ((c : Thread nD τ).loc main_arg15) := by
  have h3 : (V3 m ρ c main_arg15 : S1x64.Idx → EReal) = W2 m ρ c (Proc.devRef .tc main_arg15) := by
    dsimp only [V3, W3, hostOps1]
    after_results
  refine h3.trans ((W2_of_ne m ρ c main_arg15 (by decide)).trans ?_)
  dsimp only [W1, hostOps0]
  after_results

theorem V3_arg16 (c : Dev nD) : (V3 m ρ c main_arg16 : S1x64.Idx → EReal) = m ((c : Thread nD τ).loc main_arg16) := by
  have h3 : (V3 m ρ c main_arg16 : S1x64.Idx → EReal) = W2 m ρ c (Proc.devRef .tc main_arg16) := by
    dsimp only [V3, W3, hostOps1]
    after_results
  refine h3.trans ((W2_of_ne m ρ c main_arg16 (by decide)).trans ?_)
  dsimp only [W1, hostOps0]
  after_results

theorem V3_arg17 (c : Dev nD) : (V3 m ρ c main_arg17 : S3x3.Idx → EReal) = m ((c : Thread nD τ).loc main_arg17) := by
  have h3 : (V3 m ρ c main_arg17 : S3x3.Idx → EReal) = W2 m ρ c (Proc.devRef .tc main_arg17) := by
    dsimp only [V3, W3, hostOps1]
    after_results
  refine h3.trans ((W2_of_ne m ρ c main_arg17 (by decide)).trans ?_)
  dsimp only [W1, hostOps0]
  after_results

end Cert.Sage.KHost1

end
-- ==== Proof.KMean.lean ====
/-
  The kernel's host stretch between its two kernels, as one function of the message array and the two edge arrays:
  the source indices with negatives wrapped by the node count, the source rows gathered, added into the destination
  rows of a zero array; the same addition of ones gives the in-degree; the sums are multiplied by the reciprocal of
  `max (degree, 1)` made a column and broadcast along the features.
-/
import proofs.«175057_j62878321213496_2_alg».proof.KernelIdeal
import proofs.«175057_j62878321213496_2_alg».proof.Proof.Gen.KernelIdeal
import Idealize.ShloMosaic.PureOps.Ideal

noncomputable section

namespace Cert.Sage.KMean

open Cert.KernelIdeal Cert.KernelIdeal.Gen Idealize.ShloMosaic

def meanTerm (msg : (⟨S65536x64, .f32⟩ : BufTy).Contents (Elt Ideal)) (src dst : (⟨S1048576, .i32⟩ : BufTy).Contents (Elt Ideal)) :
    (⟨S65536x64, .f32⟩ : BufTy).Contents (Elt Ideal) :=
  mulf
    (Host.scatterAdd scatter_S65536x64_S1048576x1_S1048576x64_1_0_0_1
      (broadcastInDim S65536x64 ![] bcast_S_S65536x64 (constant (F := Ideal) S_ .f32 0x00000000#32))
      (broadcastInDim S1048576x1 ![0] bcast_S1048576_S1048576x1_0 dst)
      (Host.gather gather_S65536x64_S1048576x1_S1048576x64_1_0_n_n_0_1_164 msg
        (broadcastInDim S1048576x1 ![0] bcast_S1048576_S1048576x1_0
          (select (cmpi .slt src (broadcastInDim S1048576 ![] bcast_S_S1048576 (constantI S_ 32 0#32)))
            (addi src (broadcastInDim S1048576 ![] bcast_S_S1048576 (constantI S_ 32 65536#32))) src))))
    (broadcastInDim S65536x64 ![0, 1] bcast_S65536x1_S65536x64_0_1
      (broadcastInDim S65536x1 ![0] bcast_S65536_S65536x1_0
        (Host.divf (broadcastInDim S65536 ![] bcast_S_S65536 (constant (F := Ideal) S_ .f32 0x3F800000#32))
          (maximumf
            (Host.scatterAdd scatter_S65536_S1048576x1_S1048576_n_0_0_1
              (broadcastInDim S65536 ![] bcast_S_S65536 (constant (F := Ideal) S_ .f32 0x00000000#32))
              (broadcastInDim S1048576x1 ![0] bcast_S1048576_S1048576x1_0 dst)
              (broadcastInDim S1048576 ![] bcast_S_S1048576 (constant (F := Ideal) S_ .f32 0x3F800000#32)))
            (broadcastInDim S65536 ![] bcast_S_S65536 (constant (F := Ideal) S_ .f32 0x3F800000#32))))))

end Cert.Sage.KMean

end
-- ==== Proof.KHostLo.lean ====
/-
  The low branch's mean array as the second kernel finds it: the host stretch between the kernels applied to the first kernel's low message array and the two edge arrays, every operation in program order.
-/
import proofs.«175057_j62878321213496_2_alg».proof.Proof.Gen.KernelIdeal.Frame
import proofs.«175057_j62878321213496_2_alg».proof.Proof.KMean
import Idealize.ShloMosaic.Lib.StableHlo.Run
import Idealize.ShloMosaic.PureOps.Ideal

noncomputable section

namespace Cert.Sage.KHostLo

open Cert.KernelIdeal Cert.KernelIdeal.Gen Idealize.ShloMosaic Idealize.ShloMosaic.TcCoe Idealize.SL.Sem
open Idealize.ShloMosaic.StableHlo Cert.Sage.KMean

variable (m : (ℓ : Loc nD τ sig) → Buf (Elt Ideal) ℓ) (ρ : Dev nD → PrngReg)

set_option maxHeartbeats 4000000 in
theorem mean_eq (c : Dev nD) :
    (V3 m ρ c main_v36 : S65536x64.Idx → EReal)
      = meanTerm (W2 m ρ c (Proc.devRef .tc main_v5_3)) (W2 m ρ c (Proc.devRef .tc main_arg2)) (W2 m ρ c (Proc.devRef .tc main_arg3)) := by
  dsimp only [V3, W3, hostOps1]
  after_results
  all_goals rfl

end Cert.Sage.KHostLo

end
-- ==== Proof.KHostHi.lean ====
/-
  The high branch's mean array as the second kernel finds it: the host stretch between the kernels applied to the first kernel's high message array and the two edge arrays, every operation in program order.
-/
import proofs.«175057_j62878321213496_2_alg».proof.Proof.Gen.KernelIdeal.Frame
import proofs.«175057_j62878321213496_2_alg».proof.Proof.KMean
import Idealize.ShloMosaic.Lib.StableHlo.Run
import Idealize.ShloMosaic.PureOps.Ideal

noncomputable section

namespace Cert.Sage.KHostHi

open Cert.KernelIdeal Cert.KernelIdeal.Gen Idealize.ShloMosaic Idealize.ShloMosaic.TcCoe Idealize.SL.Sem
open Idealize.ShloMosaic.StableHlo Cert.Sage.KMean

variable (m : (ℓ : Loc nD τ sig) → Buf (Elt Ideal) ℓ) (ρ : Dev nD → PrngReg)

set_option maxHeartbeats 4000000 in
theorem mean_eq (c : Dev nD) :
    (V3 m ρ c main_v39 : S65536x64.Idx → EReal)
      = meanTerm (W2 m ρ c (Proc.devRef .tc main_v5_4)) (W2 m ρ c (Proc.devRef .tc main_arg2)) (W2 m ρ c (Proc.devRef .tc main_arg3)) := by
  dsimp only [V3, W3, hostOps1]
  after_results
  all_goals rfl

end Cert.Sage.KHostHi

end
-- ==== Proof.Mean.lean ====
/-
  The mean over incoming edges, in the two programs' forms.

  Both programs gather the source rows of the message array, add them into the destination rows, and count the edges of
  every destination by adding ones.  The reference divides the sums by `max (degree, 1)` broadcast along the features;
  the kernel first takes `1 / max (degree, 1)`, broadcasts it the same way and multiplies.  Whatever the degree is,
  `max (degree, 1)` is at least one, so it is not zero and the two agree on every extended real.
-/
import proofs.«175057_j62878321213496_2_alg».proof.Proof.Gen.ReferenceIdeal.Read
import proofs.«175057_j62878321213496_2_alg».proof.Proof.Spec
import Idealize.ShloMosaic.Lib.IdealHost

noncomputable section

namespace Cert.Sage.Mean

open Cert.ReferenceIdeal Cert.ReferenceIdeal.Gen Cert.ReferenceIdeal.Read Idealize.ShloMosaic Idealize.ShloMosaic.ValueIdx Idealize.SL.Sem

/-- A per-node vector made a column and then broadcast along the features reads, at `(r, j)`, the node's entry. -/
theorem bcast2_at (v : FVec Ideal S65536 .f32) (r : Fin 65536) (j : Fin 64) :
    broadcastInDim S65536x64 ![0, 1] bcast_S65536x1_S65536x64_0_1 (broadcastInDim S65536x1 ![0] bcast_S65536_S65536x1_0 v) (ix2 r j)
      = v (ix1 r) := by
  refine (broadcastInDim_apply _ bcast_S65536x1_S65536x64_0_1 _ (ix2 r j) (ix2 r (0 : Fin 1)) (fun a => match a with
    | ⟨0, _⟩ => by show r.val = if (65536 : Nat) = 1 then 0 else r.val; rw [if_neg (by decide)]
    | ⟨1, _⟩ => by show 0 = if (1 : Nat) = 1 then 0 else j.val; rw [if_pos rfl])).trans ?_
  exact broadcastInDim_apply _ bcast_S65536_S65536x1_0 v (ix2 r (0 : Fin 1)) (ix1 r) (fun a => match a with
    | ⟨0, _⟩ => by show r.val = if (65536 : Nat) = 1 then 0 else r.val; rw [if_neg (by decide)])

/-- For any array of sums, any vector that is one everywhere and any vector of the form `max (d, 1)`: the sums times the
    broadcast of `1 / max (d, 1)` are the sums over the broadcast of `max (d, 1)`. -/
theorem mul_recip_eq_div (S : FVec Ideal S65536x64 .f32) (one mx : FVec Ideal S65536 .f32)
    (h1 : ∀ r : Fin 65536, one (ix1 r) = 1) (hmx : ∀ r : Fin 65536, ∃ d : EReal, mx (ix1 r) = max d 1) :
    mulf S (broadcastInDim S65536x64 ![0, 1] bcast_S65536x1_S65536x64_0_1 (broadcastInDim S65536x1 ![0] bcast_S65536_S65536x1_0 (Host.divf one mx)))
      = Host.divf S (broadcastInDim S65536x64 ![0, 1] bcast_S65536x1_S65536x64_0_1 (broadcastInDim S65536x1 ![0] bcast_S65536_S65536x1_0 mx)) := by
  funext i
  obtain ⟨r, j, rfl⟩ : ∃ (r : Fin 65536) (j : Fin 64), i = ix2 r j := ⟨i 0, i 1, eq_ix2 i⟩
  rewrite [mulf_apply, hostDivf_apply, bcast2_at, bcast2_at, hostDivf_apply, h1 r]
  obtain ⟨d, hd⟩ := hmx r
  rewrite [hd]
  exact mul_one_div_of_max _ d

theorem one_v34 (r : Fin 65536) : val_main_v34 (F := Ideal) (ix1 r) = 1 := by
  rewrite [val_main_v34_apply, val_main_cst_3_apply, Ideal.ofBits_def]
  exact Ideal.ofBits_one_f32

theorem max_v35 (x3 : (⟨S1048576, .i32⟩ : BufTy).Contents (Elt Ideal)) (r : Fin 65536) : ∃ d : EReal, val_main_v35 (F := Ideal) x3 (ix1 r) = max d 1 := by
  refine ⟨val_main_v33 (F := Ideal) x3 (ix1 r), ?_⟩
  rewrite [val_main_v35_apply, one_v34]
  generalize val_main_v33 (F := Ideal) x3 (ix1 r) = d
  exact Ideal.maximumf_def (φ := .f32) d 1

/-- The low branch's mean: the edge sums times the broadcast reciprocal are the reference's quotient. -/
theorem meanLo (x0 : (⟨S65536x64, .f32⟩ : BufTy).Contents (Elt Ideal)) (x1 : (⟨S65536x1, .f32⟩ : BufTy).Contents (Elt Ideal)) (x2 x3 : (⟨S1048576, .i32⟩ : BufTy).Contents (Elt Ideal)) (x8 : (⟨S64x64, .f32⟩ : BufTy).Contents (Elt Ideal)) (x9 : (⟨S64, .f32⟩ : BufTy).Contents (Elt Ideal)) :
    mulf (F := Ideal) (φ := .f32) (val_main_v29 (F := Ideal) x0 x1 x2 x3 x8 x9)
      (broadcastInDim S65536x64 ![0, 1] bcast_S65536x1_S65536x64_0_1 (broadcastInDim S65536x1 ![0] bcast_S65536_S65536x1_0 (Host.divf (F := Ideal) (φ := .f32) (val_main_v34 (F := Ideal)) (val_main_v35 (F := Ideal) x3))))
    = val_main_v38 (F := Ideal) x0 x1 x2 x3 x8 x9 := by
  unfold val_main_v38 val_main_v37 val_main_v36
  exact mul_recip_eq_div (val_main_v29 (F := Ideal) x0 x1 x2 x3 x8 x9) (val_main_v34 (F := Ideal)) (val_main_v35 (F := Ideal) x3)
    one_v34 (max_v35 x3)

theorem one_v61 (r : Fin 65536) : val_main_v61 (F := Ideal) (ix1 r) = 1 := by
  rewrite [val_main_v61_apply, val_main_cst_9_apply, Ideal.ofBits_def]
  exact Ideal.ofBits_one_f32

theorem max_v62 (x3 : (⟨S1048576, .i32⟩ : BufTy).Contents (Elt Ideal)) (r : Fin 65536) : ∃ d : EReal, val_main_v62 (F := Ideal) x3 (ix1 r) = max d 1 := by
  refine ⟨val_main_v60 (F := Ideal) x3 (ix1 r), ?_⟩
  rewrite [val_main_v62_apply, one_v61]
  generalize val_main_v60 (F := Ideal) x3 (ix1 r) = d
  exact Ideal.maximumf_def (φ := .f32) d 1

/-- The high branch's mean: the edge sums times the broadcast reciprocal are the reference's quotient. -/
theorem meanHi (x0 : (⟨S65536x64, .f32⟩ : BufTy).Contents (Elt Ideal)) (x1 : (⟨S65536x1, .f32⟩ : BufTy).Contents (Elt Ideal)) (x2 x3 : (⟨S1048576, .i32⟩ : BufTy).Contents (Elt Ideal)) (x10 : (⟨S64x64, .f32⟩ : BufTy).Contents (Elt Ideal)) (x11 : (⟨S64, .f32⟩ : BufTy).Contents (Elt Ideal)) :
    mulf (F := Ideal) (φ := .f32) (val_main_v56 (F := Ideal) x0 x1 x2 x3 x10 x11)
      (broadcastInDim S65536x64 ![0, 1] bcast_S65536x1_S65536x64_0_1 (broadcastInDim S65536x1 ![0] bcast_S65536_S65536x1_0 (Host.divf (F := Ideal) (φ := .f32) (val_main_v61 (F := Ideal)) (val_main_v62 (F := Ideal) x3))))
    = val_main_v65 (F := Ideal) x0 x1 x2 x3 x10 x11 := by
  unfold val_main_v65 val_main_v64 val_main_v63
  exact mul_recip_eq_div (val_main_v56 (F := Ideal) x0 x1 x2 x3 x10 x11) (val_main_v61 (F := Ideal)) (val_main_v62 (F := Ideal) x3)
    one_v61 (max_v62 x3)

end Cert.Sage.Mean

end
-- ==== Proof.Bridge.lean ====
/-
  The kernel's mean term on the reference's message arrays is the reference's mean.

  The two programs print the same gather, the same two scatter-adds and the same index arithmetic, each under its own
  names; unfolding the names identifies them.  What is left is the one algebraic difference, the product with the
  reciprocal against the quotient.
-/
import proofs.«175057_j62878321213496_2_alg».proof.Proof.KMean
import proofs.«175057_j62878321213496_2_alg».proof.Proof.Mean

noncomputable section

namespace Cert.Sage.Bridge

open Idealize.ShloMosaic Idealize.SL.Sem Cert.Sage.KMean
open Cert.ReferenceIdeal Cert.ReferenceIdeal.Gen Cert.ReferenceIdeal.Read

theorem meanLo (x0 : (⟨S65536x64, .f32⟩ : BufTy).Contents (Elt Ideal)) (x1 : (⟨S65536x1, .f32⟩ : BufTy).Contents (Elt Ideal)) (x2 x3 : (⟨S1048576, .i32⟩ : BufTy).Contents (Elt Ideal)) (x8 : (⟨S64x64, .f32⟩ : BufTy).Contents (Elt Ideal)) (x9 : (⟨S64, .f32⟩ : BufTy).Contents (Elt Ideal)) :
    meanTerm (val_main_v19 (F := Ideal) x0 x1 x8 x9) x2 x3 = val_main_v38 (F := Ideal) x0 x1 x2 x3 x8 x9 :=
  Eq.trans (by unfold meanTerm val_main_v29 val_main_v26; rfl) (Mean.meanLo x0 x1 x2 x3 x8 x9)

theorem meanHi (x0 : (⟨S65536x64, .f32⟩ : BufTy).Contents (Elt Ideal)) (x1 : (⟨S65536x1, .f32⟩ : BufTy).Contents (Elt Ideal)) (x2 x3 : (⟨S1048576, .i32⟩ : BufTy).Contents (Elt Ideal)) (x10 : (⟨S64x64, .f32⟩ : BufTy).Contents (Elt Ideal)) (x11 : (⟨S64, .f32⟩ : BufTy).Contents (Elt Ideal)) :
    meanTerm (val_main_v46 (F := Ideal) x0 x1 x10 x11) x2 x3 = val_main_v65 (F := Ideal) x0 x1 x2 x3 x10 x11 :=
  Eq.trans (by unfold meanTerm val_main_v56 val_main_v53; rfl) (Mean.meanHi x0 x1 x2 x3 x10 x11)

end Cert.Sage.Bridge

end
-- ==== Proof.RefLin.lean ====
/-
  The reference's five projections, read entry by entry.

  Each is `relu (x · Wᵀ + b)`: the transposed weight matrix enters a plain matrix product, whose entry `(r, j)` is the
  sum over the 64 features of `x (r, k) · W (j, k)`; the bias vector is broadcast to a row and then down the rows; the
  maximum is taken against the zero word.  The two message arrays are two of these scaled by the node's norm.
-/
import proofs.«175057_j62878321213496_2_alg».proof.Proof.Gen.ReferenceIdeal.Read
import proofs.«175057_j62878321213496_2_alg».proof.Proof.Spec

noncomputable section

namespace Cert.Sage.RefLin

open Cert.ReferenceIdeal Cert.ReferenceIdeal.Gen Cert.ReferenceIdeal.Read Idealize.ShloMosaic Idealize.ShloMosaic.ValueIdx Idealize.SL.Sem

theorem selfLo (x0 : (⟨S65536x64, .f32⟩ : BufTy).Contents (Elt Ideal)) (x4 : (⟨S64x64, .f32⟩ : BufTy).Contents (Elt Ideal)) (x5 : (⟨S64, .f32⟩ : BufTy).Contents (Elt Ideal)) :
    val_main_v5 (F := Ideal) x0 x4 x5 = fun i => linReluAt (n := 65536) x0 x4 (biasRow x5) (i 0) (i 1) := by
  funext i
  obtain ⟨r, j, rfl⟩ : ∃ (r : Fin 65536) (j : Fin 64), i = ix2 r j := ⟨i 0, i 1, eq_ix2 i⟩
  show _ = linReluAt (n := 65536) x0 x4 (biasRow x5) r j
  rw [val_main_v5_apply, val_main_v4_apply, val_main_v1_apply, val_main_v3_apply, val_main_v2_apply, val_main_call0_v0_apply, val_main_call0_cst_apply]
  have e1 : ∀ k : Fin 64, lidx_main_v1 (ix2 r j) k = ix2 r k := fun k => funext fun a => Fin.ext (by
    match a with
    | ⟨0, _⟩ => rfl
    | ⟨1, _⟩ => rfl)
  have e2 : ∀ k : Fin 64, idx_main_v0 (ridx_main_v1 (ix2 r j) k) = ix2 j k := fun k => funext fun a => Fin.ext (by
    match a with
    | ⟨0, _⟩ => rfl
    | ⟨1, _⟩ => rfl)
  have e3 : idx_main_v2 (idx_main_v3 (ix2 r j)) = ix1 j := funext fun a => Fin.ext (by
    match a with
    | ⟨0, _⟩ => rfl)
  simp only [val_main_v0_apply, e1, e2, e3]
  rfl

theorem selfHi (x0 : (⟨S65536x64, .f32⟩ : BufTy).Contents (Elt Ideal)) (x6 : (⟨S64x64, .f32⟩ : BufTy).Contents (Elt Ideal)) (x7 : (⟨S64, .f32⟩ : BufTy).Contents (Elt Ideal)) :
    val_main_v11 (F := Ideal) x0 x6 x7 = fun i => linReluAt (n := 65536) x0 x6 (biasRow x7) (i 0) (i 1) := by
  funext i
  obtain ⟨r, j, rfl⟩ : ∃ (r : Fin 65536) (j : Fin 64), i = ix2 r j := ⟨i 0, i 1, eq_ix2 i⟩
  show _ = linReluAt (n := 65536) x0 x6 (biasRow x7) r j
  rw [val_main_v11_apply, val_main_v10_apply, val_main_v7_apply, val_main_v9_apply, val_main_v8_apply, val_main_call1_v0_apply, val_main_call1_cst_apply]
  have e1 : ∀ k : Fin 64, lidx_main_v7 (ix2 r j) k = ix2 r k := fun k => funext fun a => Fin.ext (by
    match a with
    | ⟨0, _⟩ => rfl
    | ⟨1, _⟩ => rfl)
  have e2 : ∀ k : Fin 64, idx_main_v6 (ridx_main_v7 (ix2 r j) k) = ix2 j k := fun k => funext fun a => Fin.ext (by
    match a with
    | ⟨0, _⟩ => rfl
    | ⟨1, _⟩ => rfl)
  have e3 : idx_main_v8 (idx_main_v9 (ix2 r j)) = ix1 j := funext fun a => Fin.ext (by
    match a with
    | ⟨0, _⟩ => rfl)
  simp only [val_main_v6_apply, e1, e2, e3]
  rfl

theorem preLo (x0 : (⟨S65536x64, .f32⟩ : BufTy).Contents (Elt Ideal)) (x8 : (⟨S64x64, .f32⟩ : BufTy).Contents (Elt Ideal)) (x9 : (⟨S64, .f32⟩ : BufTy).Contents (Elt Ideal)) :
    val_main_v17 (F := Ideal) x0 x8 x9 = fun i => linReluAt (n := 65536) x0 x8 (biasRow x9) (i 0) (i 1) := by
  funext i
  obtain ⟨r, j, rfl⟩ : ∃ (r : Fin 65536) (j : Fin 64), i = ix2 r j := ⟨i 0, i 1, eq_ix2 i⟩
  show _ = linReluAt (n := 65536) x0 x8 (biasRow x9) r j
  rw [val_main_v17_apply, val_main_v16_apply, val_main_v13_apply, val_main_v15_apply, val_main_v14_apply, val_main_call2_v0_apply, val_main_call2_cst_apply]
  have e1 : ∀ k : Fin 64, lidx_main_v13 (ix2 r j) k = ix2 r k := fun k => funext fun a => Fin.ext (by
    match a with
    | ⟨0, _⟩ => rfl
    | ⟨1, _⟩ => rfl)
  have e2 : ∀ k : Fin 64, idx_main_v12 (ridx_main_v13 (ix2 r j) k) = ix2 j k := fun k => funext fun a => Fin.ext (by
    match a with
    | ⟨0, _⟩ => rfl
    | ⟨1, _⟩ => rfl)
  have e3 : idx_main_v14 (idx_main_v15 (ix2 r j)) = ix1 j := funext fun a => Fin.ext (by
    match a with
    | ⟨0, _⟩ => rfl)
  simp only [val_main_v12_apply, e1, e2, e3]
  rfl

theorem preHi (x0 : (⟨S65536x64, .f32⟩ : BufTy).Contents (Elt Ideal)) (x10 : (⟨S64x64, .f32⟩ : BufTy).Contents (Elt Ideal)) (x11 : (⟨S64, .f32⟩ : BufTy).Contents (Elt Ideal)) :
    val_main_v44 (F := Ideal) x0 x10 x11 = fun i => linReluAt (n := 65536) x0 x10 (biasRow x11) (i 0) (i 1) := by
  funext i
  obtain ⟨r, j, rfl⟩ : ∃ (r : Fin 65536) (j : Fin 64), i = ix2 r j := ⟨i 0, i 1, eq_ix2 i⟩
  show _ = linReluAt (n := 65536) x0 x10 (biasRow x11) r j
  rw [val_main_v44_apply, val_main_v43_apply, val_main_v40_apply, val_main_v42_apply, val_main_v41_apply, val_main_call3_v0_apply, val_main_call3_cst_apply]
  have e1 : ∀ k : Fin 64, lidx_main_v40 (ix2 r j) k = ix2 r k := fun k => funext fun a => Fin.ext (by
    match a with
    | ⟨0, _⟩ => rfl
    | ⟨1, _⟩ => rfl)
  have e2 : ∀ k : Fin 64, idx_main_v39 (ridx_main_v40 (ix2 r j) k) = ix2 j k := fun k => funext fun a => Fin.ext (by
    match a with
    | ⟨0, _⟩ => rfl
    | ⟨1, _⟩ => rfl)
  have e3 : idx_main_v41 (idx_main_v42 (ix2 r j)) = ix1 j := funext fun a => Fin.ext (by
    match a with
    | ⟨0, _⟩ => rfl)
  simp only [val_main_v39_apply, e1, e2, e3]
  rfl

theorem ident (x0 : (⟨S65536x64, .f32⟩ : BufTy).Contents (Elt Ideal)) (x12 : (⟨S64x64, .f32⟩ : BufTy).Contents (Elt Ideal)) (x13 : (⟨S64, .f32⟩ : BufTy).Contents (Elt Ideal)) :
    val_main_v73 (F := Ideal) x0 x12 x13 = fun i => linReluAt (n := 65536) x0 x12 (biasRow x13) (i 0) (i 1) := by
  funext i
  obtain ⟨r, j, rfl⟩ : ∃ (r : Fin 65536) (j : Fin 64), i = ix2 r j := ⟨i 0, i 1, eq_ix2 i⟩
  show _ = linReluAt (n := 65536) x0 x12 (biasRow x13) r j
  rw [val_main_v73_apply, val_main_v72_apply, val_main_v69_apply, val_main_v71_apply, val_main_v70_apply, val_main_call4_v0_apply, val_main_call4_cst_apply]
  have e1 : ∀ k : Fin 64, lidx_main_v69 (ix2 r j) k = ix2 r k := fun k => funext fun a => Fin.ext (by
    match a with
    | ⟨0, _⟩ => rfl
    | ⟨1, _⟩ => rfl)
  have e2 : ∀ k : Fin 64, idx_main_v68 (ridx_main_v69 (ix2 r j) k) = ix2 j k := fun k => funext fun a => Fin.ext (by
    match a with
    | ⟨0, _⟩ => rfl
    | ⟨1, _⟩ => rfl)
  have e3 : idx_main_v70 (idx_main_v71 (ix2 r j)) = ix1 j := funext fun a => Fin.ext (by
    match a with
    | ⟨0, _⟩ => rfl)
  simp only [val_main_v68_apply, e1, e2, e3]
  rfl

theorem msgLo (x0 : (⟨S65536x64, .f32⟩ : BufTy).Contents (Elt Ideal)) (x1 : (⟨S65536x1, .f32⟩ : BufTy).Contents (Elt Ideal)) (x8 : (⟨S64x64, .f32⟩ : BufTy).Contents (Elt Ideal)) (x9 : (⟨S64, .f32⟩ : BufTy).Contents (Elt Ideal)) :
    val_main_v19 (F := Ideal) x0 x1 x8 x9
      = fun i => linReluAt (n := 65536) x0 x8 (biasRow x9) (i 0) (i 1) * x1 (ix2 (i 0) (0 : Fin 1)) := by
  funext i
  obtain ⟨r, j, rfl⟩ : ∃ (r : Fin 65536) (j : Fin 64), i = ix2 r j := ⟨i 0, i 1, eq_ix2 i⟩
  show _ = linReluAt (n := 65536) x0 x8 (biasRow x9) r j * x1 (ix2 r (0 : Fin 1))
  rw [val_main_v19_apply, val_main_v18_apply, preLo]
  have e : idx_main_v18 (ix2 r j) = ix2 r (0 : Fin 1) := funext fun a => Fin.ext (by
    match a with
    | ⟨0, _⟩ => rfl
    | ⟨1, _⟩ => rfl)
  rw [e]
  rfl

theorem msgHi (x0 : (⟨S65536x64, .f32⟩ : BufTy).Contents (Elt Ideal)) (x1 : (⟨S65536x1, .f32⟩ : BufTy).Contents (Elt Ideal)) (x10 : (⟨S64x64, .f32⟩ : BufTy).Contents (Elt Ideal)) (x11 : (⟨S64, .f32⟩ : BufTy).Contents (Elt Ideal)) :
    val_main_v46 (F := Ideal) x0 x1 x10 x11
      = fun i => linReluAt (n := 65536) x0 x10 (biasRow x11) (i 0) (i 1) * x1 (ix2 (i 0) (0 : Fin 1)) := by
  funext i
  obtain ⟨r, j, rfl⟩ : ∃ (r : Fin 65536) (j : Fin 64), i = ix2 r j := ⟨i 0, i 1, eq_ix2 i⟩
  show _ = linReluAt (n := 65536) x0 x10 (biasRow x11) r j * x1 (ix2 r (0 : Fin 1))
  rw [val_main_v46_apply, val_main_v45_apply, preHi]
  have e : idx_main_v45 (ix2 r j) = ix2 r (0 : Fin 1) := funext fun a => Fin.ext (by
    match a with
    | ⟨0, _⟩ => rfl
    | ⟨1, _⟩ => rfl)
  rw [e]
  rfl

end Cert.Sage.RefLin

end
-- ==== Proof.RefMix.lean ====
/-
  The reference's attention stage, read entry by entry.

  The three logits are matrix products of a branch with a transposed attention row (a sum over the 64 features), joined
  into a three-column array; the gate is spelled `1 / (1 + e^(-x))`; the mixer enters as a product with its transpose (a
  sum over three terms); the softmax takes a maximum over the three columns from `-∞` (then once more against `-∞`), the
  exponentials of the differences, and their sum from `0`; the three weights are column slices broadcast along the
  features.  Each step is read at an entry and the whole is the specification's `mixAtRow` of the three branch arrays.
-/
import proofs.«175057_j62878321213496_2_alg».proof.Proof.Gen.ReferenceIdeal.Read
import proofs.«175057_j62878321213496_2_alg».proof.Proof.Spec
import Idealize.ShloMosaic.Lib.IdealHost
import Idealize.ShloMosaic.PureOps.Reduce

noncomputable section

namespace Cert.Sage.RefMix

open Cert.ReferenceIdeal Cert.ReferenceIdeal.Gen Cert.ReferenceIdeal.Read Idealize.ShloMosaic Idealize.ShloMosaic.ValueIdx Idealize.SL.Sem
open scoped BigOperators

/-- The word of `-∞` is the bottom of the extended reals. -/
theorem negInf : Ideal.ofBits .f32 0xFF800000#32 = (⊥ : EReal) := by simp [Ideal.ofBits, Ideal.ieee]

/-- The maximum over three columns, folded from the bottom, in the order the kernel takes it. -/
theorem fold_max3 (f : Fin 3 → EReal) :
    (Finset.univ : Finset (Fin 3)).fold max (⊥ : EReal) f = max (max (f 0) (f 1)) (f 2) := by
  apply le_antisymm
  · rw [Finset.fold_max_le]
    refine ⟨bot_le, fun x _ => ?_⟩
    fin_cases x
    · exact le_max_of_le_left (le_max_left _ _)
    · exact le_max_of_le_left (le_max_right _ _)
    · exact le_max_right _ _
  · refine max_le (max_le ?_ ?_) ?_ <;> exact (Finset.le_fold_max _).2 (Or.inr ⟨_, Finset.mem_univ _, le_rfl⟩)

variable (x0 : (⟨S65536x64, .f32⟩ : BufTy).Contents (Elt Ideal)) (x1 : (⟨S65536x1, .f32⟩ : BufTy).Contents (Elt Ideal)) (x2 : (⟨S1048576, .i32⟩ : BufTy).Contents (Elt Ideal)) (x3 : (⟨S1048576, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S1x64, .f32⟩ : BufTy).Contents (Elt Ideal)) (x15 : (⟨S1x64, .f32⟩ : BufTy).Contents (Elt Ideal)) (x16 : (⟨S1x64, .f32⟩ : BufTy).Contents (Elt Ideal)) (x17 : (⟨S3x3, .f32⟩ : BufTy).Contents (Elt Ideal))

/-! ## The logits -/

theorem logitLo (r : Fin 65536) :
    val_main_v75 (F := Ideal) x0 x1 x2 x3 x4 x5 x8 x9 x14 (ix2 r (0 : Fin 1)) = logit (n := 65536) (val_main_v66 (F := Ideal) x0 x1 x2 x3 x4 x5 x8 x9) x14 r := by
  rw [val_main_v75_apply]
  unfold logit
  refine Finset.sum_congr rfl fun k _ => ?_
  rw [val_main_v74_apply]
  have e1 : lidx_main_v75 (ix2 r (0 : Fin 1)) k = ix2 r k := funext fun a => Fin.ext (by
    match a with
    | ⟨0, _⟩ => rfl
    | ⟨1, _⟩ => rfl)
  have e2 : idx_main_v74 (ridx_main_v75 (ix2 r (0 : Fin 1)) k) = ix2 (0 : Fin 1) k := funext fun a => Fin.ext (by
    match a with
    | ⟨0, _⟩ => rfl
    | ⟨1, _⟩ => rfl)
  rw [e1, e2]

theorem logitHi (r : Fin 65536) :
    val_main_v77 (F := Ideal) x0 x1 x2 x3 x6 x7 x10 x11 x15 (ix2 r (0 : Fin 1)) = logit (n := 65536) (val_main_v67 (F := Ideal) x0 x1 x2 x3 x6 x7 x10 x11) x15 r := by
  rw [val_main_v77_apply]
  unfold logit
  refine Finset.sum_congr rfl fun k _ => ?_
  rw [val_main_v76_apply]
  have e1 : lidx_main_v77 (ix2 r (0 : Fin 1)) k = ix2 r k := funext fun a => Fin.ext (by
    match a with
    | ⟨0, _⟩ => rfl
    | ⟨1, _⟩ => rfl)
  have e2 : idx_main_v76 (ridx_main_v77 (ix2 r (0 : Fin 1)) k) = ix2 (0 : Fin 1) k := funext fun a => Fin.ext (by
    match a with
    | ⟨0, _⟩ => rfl
    | ⟨1, _⟩ => rfl)
  rw [e1, e2]

theorem logitId (r : Fin 65536) :
    val_main_v79 (F := Ideal) x0 x12 x13 x16 (ix2 r (0 : Fin 1)) = logit (n := 65536) (val_main_v73 (F := Ideal) x0 x12 x13) x16 r := by
  rw [val_main_v79_apply]
  unfold logit
  refine Finset.sum_congr rfl fun k _ => ?_
  rw [val_main_v78_apply]
  have e1 : lidx_main_v79 (ix2 r (0 : Fin 1)) k = ix2 r k := funext fun a => Fin.ext (by
    match a with
    | ⟨0, _⟩ => rfl
    | ⟨1, _⟩ => rfl)
  have e2 : idx_main_v78 (ridx_main_v79 (ix2 r (0 : Fin 1)) k) = ix2 (0 : Fin 1) k := funext fun a => Fin.ext (by
    match a with
    | ⟨0, _⟩ => rfl
    | ⟨1, _⟩ => rfl)
  rw [e1, e2]

/-! ## The three logits side by side -/

theorem cat0 (r : Fin 65536) :
    val_main_v80 (F := Ideal) x0 x1 x2 x3 x4 x5 x6 x7 x8 x9 x10 x11 x12 x13 x14 x15 x16 (ix2 r (0 : Fin 3)) = val_main_v75 (F := Ideal) x0 x1 x2 x3 x4 x5 x8 x9 x14 (ix2 r (0 : Fin 1)) := by
  unfold val_main_v80
  refine concatenate_apply_piece (t := S65536x3) (1 : Fin 2)
    [⟨S65536x1, val_main_v75 (F := Ideal) x0 x1 x2 x3 x4 x5 x8 x9 x14⟩, ⟨S65536x1, val_main_v77 (F := Ideal) x0 x1 x2 x3 x6 x7 x10 x11 x15⟩, ⟨S65536x1, val_main_v79 (F := Ideal) x0 x12 x13 x16⟩]
    concatenates_S65536x1_S65536x1_S65536x1_S65536x3_d1 (ix2 r (0 : Fin 3)) 0 (by simp)
    S65536x1 _ rfl rfl 0 (by rfl) (ix2 r (0 : Fin 1)) (fun b hb => ?_) rfl
  match b with
  | ⟨0, _⟩ => rfl
  | ⟨1, _⟩ => exact absurd rfl hb

theorem cat1 (r : Fin 65536) :
    val_main_v80 (F := Ideal) x0 x1 x2 x3 x4 x5 x6 x7 x8 x9 x10 x11 x12 x13 x14 x15 x16 (ix2 r (1 : Fin 3)) = val_main_v77 (F := Ideal) x0 x1 x2 x3 x6 x7 x10 x11 x15 (ix2 r (0 : Fin 1)) := by
  unfold val_main_v80
  refine concatenate_apply_piece (t := S65536x3) (1 : Fin 2)
    [⟨S65536x1, val_main_v75 (F := Ideal) x0 x1 x2 x3 x4 x5 x8 x9 x14⟩, ⟨S65536x1, val_main_v77 (F := Ideal) x0 x1 x2 x3 x6 x7 x10 x11 x15⟩, ⟨S65536x1, val_main_v79 (F := Ideal) x0 x12 x13 x16⟩]
    concatenates_S65536x1_S65536x1_S65536x1_S65536x3_d1 (ix2 r (1 : Fin 3)) 1 (by simp)
    S65536x1 _ rfl rfl 1 (by rfl) (ix2 r (0 : Fin 1)) (fun b hb => ?_) rfl
  match b with
  | ⟨0, _⟩ => rfl
  | ⟨1, _⟩ => exact absurd rfl hb

theorem cat2 (r : Fin 65536) :
    val_main_v80 (F := Ideal) x0 x1 x2 x3 x4 x5 x6 x7 x8 x9 x10 x11 x12 x13 x14 x15 x16 (ix2 r (2 : Fin 3)) = val_main_v79 (F := Ideal) x0 x12 x13 x16 (ix2 r (0 : Fin 1)) := by
  unfold val_main_v80
  refine concatenate_apply_piece (t := S65536x3) (1 : Fin 2)
    [⟨S65536x1, val_main_v75 (F := Ideal) x0 x1 x2 x3 x4 x5 x8 x9 x14⟩, ⟨S65536x1, val_main_v77 (F := Ideal) x0 x1 x2 x3 x6 x7 x10 x11 x15⟩, ⟨S65536x1, val_main_v79 (F := Ideal) x0 x12 x13 x16⟩]
    concatenates_S65536x1_S65536x1_S65536x1_S65536x3_d1 (ix2 r (2 : Fin 3)) 2 (by simp)
    S65536x1 _ rfl rfl 2 (by rfl) (ix2 r (0 : Fin 1)) (fun b hb => ?_) rfl
  match b with
  | ⟨0, _⟩ => rfl
  | ⟨1, _⟩ => exact absurd rfl hb

/-! ## The gates -/

theorem gate_at (i : S65536x3.Idx) :
    val_main_v86 (F := Ideal) x0 x1 x2 x3 x4 x5 x6 x7 x8 x9 x10 x11 x12 x13 x14 x15 x16 i = gate (val_main_v80 (F := Ideal) x0 x1 x2 x3 x4 x5 x6 x7 x8 x9 x10 x11 x12 x13 x14 x15 x16 i) := by
  rw [val_main_v86_apply, val_main_v85_apply, val_main_cst_11_apply, val_main_v84_apply, val_main_v83_apply, val_main_cst_10_apply,
    val_main_v82_apply, val_main_v81_apply]
  show Ideal.div (Ideal.ofBits .f32 0x3F800000#32) (Ideal.ofBits .f32 0x3F800000#32 + Ideal.exp (-(val_main_v80 (F := Ideal) x0 x1 x2 x3 x4 x5 x6 x7 x8 x9 x10 x11 x12 x13 x14 x15 x16 i))) = _
  rw [Ideal.ofBits_one_f32]
  rfl

theorem gate0 (r : Fin 65536) : val_main_v86 (F := Ideal) x0 x1 x2 x3 x4 x5 x6 x7 x8 x9 x10 x11 x12 x13 x14 x15 x16 (ix2 r (0 : Fin 3)) = (gate (logit (n := 65536) (val_main_v66 (F := Ideal) x0 x1 x2 x3 x4 x5 x8 x9) x14 r)) := by
  rw [gate_at, cat0, logitLo]
theorem gate1 (r : Fin 65536) : val_main_v86 (F := Ideal) x0 x1 x2 x3 x4 x5 x6 x7 x8 x9 x10 x11 x12 x13 x14 x15 x16 (ix2 r (1 : Fin 3)) = (gate (logit (n := 65536) (val_main_v67 (F := Ideal) x0 x1 x2 x3 x6 x7 x10 x11) x15 r)) := by
  rw [gate_at, cat1, logitHi]
theorem gate2 (r : Fin 65536) : val_main_v86 (F := Ideal) x0 x1 x2 x3 x4 x5 x6 x7 x8 x9 x10 x11 x12 x13 x14 x15 x16 (ix2 r (2 : Fin 3)) = (gate (logit (n := 65536) (val_main_v73 (F := Ideal) x0 x12 x13) x16 r)) := by
  rw [gate_at, cat2, logitId]

/-! ## The scores -/

theorem score_at (r : Fin 65536) (q : Fin 3) :
    val_main_v90 (F := Ideal) x0 x1 x2 x3 x4 x5 x6 x7 x8 x9 x10 x11 x12 x13 x14 x15 x16 x17 (ix2 r q) = score ((gate (logit (n := 65536) (val_main_v66 (F := Ideal) x0 x1 x2 x3 x4 x5 x8 x9) x14 r))) ((gate (logit (n := 65536) (val_main_v67 (F := Ideal) x0 x1 x2 x3 x6 x7 x10 x11) x15 r))) ((gate (logit (n := 65536) (val_main_v73 (F := Ideal) x0 x12 x13) x16 r))) x17 q := by
  rw [val_main_v90_apply, val_main_v89_apply, val_main_cst_12_apply, val_main_v88_apply, Fin.sum_univ_three]
  simp only [val_main_v87_apply]
  have el : ∀ k : Fin 3, lidx_main_v88 (ix2 r q) k = ix2 r k := fun k => funext fun a => Fin.ext (by
    match a with
    | ⟨0, _⟩ => rfl
    | ⟨1, _⟩ => rfl)
  have er : ∀ k : Fin 3, idx_main_v87 (ridx_main_v88 (ix2 r q) k) = ix2 q k := fun k => funext fun a => Fin.ext (by
    match a with
    | ⟨0, _⟩ => rfl
    | ⟨1, _⟩ => rfl)
  rw [el, el, el, er, er, er, gate0, gate1, gate2]
  rfl

/-! ## The softmax -/

theorem redH : S65536x3.Reduces [1] S65536 := by decide

theorem lift3 (r : Fin 65536) (k : Fin 3) : redH.lift (ix1 r) k = ix2 r k := by
  funext c
  apply Fin.ext
  fin_cases c <;> rfl

/-- The host's maximum over the three columns from `-∞`, at row `r`. -/
theorem max3_at (Y : FVec Ideal S65536x3 .f32) (r : Fin 65536) :
    Host.reduce (FloatOps.maximumf (F := Ideal) (φ := .f32)) Y (val_main_cst_13 (F := Ideal)) reducesTo_S65536x3_S65536_d1 h_S_ (ix1 r)
      = max (max (Y (ix2 r (0 : Fin 3))) (Y (ix2 r (1 : Fin 3)))) (Y (ix2 r (2 : Fin 3))) := by
  rw [Host.reduce_eq_fold_single (FloatOps.maximumf (F := Ideal) (φ := .f32)) Y _ reducesTo_S65536x3_S65536_d1 redH h_S_]
  have hb : val_main_cst_13 (F := Ideal) (Shape.Idx.first h_S_) = (⊥ : EReal) := negInf
  rw [hb]
  refine (fold_max3 (Y ∘ redH.lift (ix1 r))).trans ?_
  show max (max (Y (redH.lift (ix1 r) (0 : Fin 3))) (Y (redH.lift (ix1 r) (1 : Fin 3)))) (Y (redH.lift (ix1 r) (2 : Fin 3))) = _
  rw [lift3, lift3, lift3]

theorem rowMax_at (r : Fin 65536) (q : Fin 3) :
    val_main_v95 (F := Ideal) x0 x1 x2 x3 x4 x5 x6 x7 x8 x9 x10 x11 x12 x13 x14 x15 x16 x17 (ix2 r q) = max (max (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 0) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 1)) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 2) := by
  rw [val_main_v95_apply, val_main_v94_apply, val_main_v93_apply, val_main_v92_apply, val_main_cst_14_apply]
  have e : idx_main_v94 (idx_main_v95 (ix2 r q)) = ix1 r := funext fun a => Fin.ext (by
    match a with
    | ⟨0, _⟩ => rfl)
  rw [e]
  unfold val_main_v91
  rw [max3_at, score_at, score_at, score_at]
  show max (Ideal.ofBits .f32 0xFF800000#32) _ = _
  rw [negInf, max_eq_right bot_le]

theorem expo_at (r : Fin 65536) (q : Fin 3) :
    val_main_v97 (F := Ideal) x0 x1 x2 x3 x4 x5 x6 x7 x8 x9 x10 x11 x12 x13 x14 x15 x16 x17 (ix2 r q) = expo (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 q) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 0) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 1) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 2) := by
  rw [val_main_v97_apply, val_main_v96_apply, rowMax_at, score_at]
  rfl

theorem weight_at (r : Fin 65536) (q : Fin 3) :
    val_main_v101 (F := Ideal) x0 x1 x2 x3 x4 x5 x6 x7 x8 x9 x10 x11 x12 x13 x14 x15 x16 x17 (ix2 r q)
      = Ideal.div (expo (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 q) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 0) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 1) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 2))
          ((expo (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 0) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 0) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 1) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 2) + expo (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 1) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 0) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 1) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 2))
            + expo (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 2) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 0) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 1) (score (gate (logit (n := 65536) (val_main_v66 (F := Ideal) x0 x1 x2 x3 x4 x5 x8 x9) x14 r)) (gate (logit (n := 65536) (val_main_v67 (F := Ideal) x0 x1 x2 x3 x6 x7 x10 x11) x15 r)) (gate (logit (n := 65536) (val_main_v73 (F := Ideal) x0 x12 x13) x16 r)) x17 2)) := by
  rw [val_main_v101_apply, val_main_v100_apply, val_main_v99_apply, val_main_v98_apply, val_main_cst_15_apply, Fin.sum_univ_three, expo_at]
  have e : ∀ k : Fin 3, idx_main_v98 (idx_main_v99 (idx_main_v100 (ix2 r q))) k = ix2 r k := fun k => funext fun a => Fin.ext (by
    match a with
    | ⟨0, _⟩ => rfl
    | ⟨1, _⟩ => rfl)
  rw [e, e, e, expo_at, expo_at, expo_at]
  show Ideal.div _ (Ideal.ofBits .f32 0x00000000#32 + _) = _
  rw [Ideal.ofBits_zero_f32, zero_add]

/-! ## The mix -/

/-- The reference's result array is the attention stage of its three branch arrays. -/
theorem result_eq :
    val_main_v114 (F := Ideal) x0 x1 x2 x3 x4 x5 x6 x7 x8 x9 x10 x11 x12 x13 x14 x15 x16 x17
      = fun i => mixAtRow (n := 65536) (val_main_v66 (F := Ideal) x0 x1 x2 x3 x4 x5 x8 x9) (val_main_v67 (F := Ideal) x0 x1 x2 x3 x6 x7 x10 x11) (val_main_v73 (F := Ideal) x0 x12 x13)
          x14 x15 x16 x17 (i 0) (i 1) := by
  funext i
  obtain ⟨r, j, rfl⟩ : ∃ (r : Fin 65536) (j : Fin 64), i = ix2 r j := ⟨i 0, i 1, eq_ix2 i⟩
  show _ = mixAtRow (n := 65536) (val_main_v66 (F := Ideal) x0 x1 x2 x3 x4 x5 x8 x9) (val_main_v67 (F := Ideal) x0 x1 x2 x3 x6 x7 x10 x11) (val_main_v73 (F := Ideal) x0 x12 x13)
          x14 x15 x16 x17 r j
  rw [val_main_v114_apply, val_main_v113_apply, val_main_cst_16_apply, val_main_v112_apply, val_main_v108_apply, val_main_v104_apply,
    val_main_v107_apply, val_main_v111_apply, val_main_v103_apply, val_main_v102_apply, val_main_v106_apply, val_main_v105_apply,
    val_main_v110_apply, val_main_v109_apply]
  have e0 : idx_main_v102 (idx_main_v103 (ix2 r j)) = ix2 r (0 : Fin 3) := funext fun a => Fin.ext (by
    match a with
    | ⟨0, _⟩ => rfl
    | ⟨1, _⟩ => rfl)
  have e1 : idx_main_v105 (idx_main_v106 (ix2 r j)) = ix2 r (1 : Fin 3) := funext fun a => Fin.ext (by
    match a with
    | ⟨0, _⟩ => rfl
    | ⟨1, _⟩ => rfl)
  have e2 : idx_main_v109 (idx_main_v110 (ix2 r j)) = ix2 r (2 : Fin 3) := funext fun a => Fin.ext (by
    match a with
    | ⟨0, _⟩ => rfl
    | ⟨1, _⟩ => rfl)
  rw [e0, e1, e2, weight_at, weight_at, weight_at]
  rfl

end Cert.Sage.RefMix

end
-- ==== Proof.KValue.lean ====
/-
  The idealized kernel's result array as a function of the launched arrays.

  Reading back through the four segments: the result array is the attention stage of the arrays the second kernel
  finds; three of those are the first kernel's self results, two are the means the host stretch forms from the first
  kernel's message arrays, the rest are arguments as launched; the first kernel's arrays are `relu (x · Wᵀ + b)` of the
  launched arrays.  Each piece is the reference's stage of the same name, so the whole is the reference's result term
  at the kernel's launch memory.
-/
import proofs.«175057_j62878321213496_2_alg».proof.Proof.Arr0
import proofs.«175057_j62878321213496_2_alg».proof.Proof.Arr1
import proofs.«175057_j62878321213496_2_alg».proof.Proof.KHost0
import proofs.«175057_j62878321213496_2_alg».proof.Proof.KHost1
import proofs.«175057_j62878321213496_2_alg».proof.Proof.KHostLo
import proofs.«175057_j62878321213496_2_alg».proof.Proof.KHostHi
import proofs.«175057_j62878321213496_2_alg».proof.Proof.Bridge
import proofs.«175057_j62878321213496_2_alg».proof.Proof.RefLin
import proofs.«175057_j62878321213496_2_alg».proof.Proof.RefMix

noncomputable section

namespace Cert.Sage.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The first kernel's five arrays -/

theorem selfLo (c : Dev nD) : (V3 m ρ c main_v5_0 : S65536x64.Idx → EReal) = Cert.ReferenceIdeal.Read.val_main_v5 (F := Ideal) (m ((c : Thread nD τ).loc main_arg0)) (m ((c : Thread nD τ).loc main_arg4)) (m ((c : Thread nD τ).loc main_arg5)) :=
  (KHost1.V3_self0 m ρ c).trans ((Arr0.arr12 (V1 m ρ) c).trans (by
    rw [KHost0.V1_arg0, KHost0.V1_arg4, KHost0.V1_bias0]
    exact (RefLin.selfLo _ _ _).symm))

theorem selfHi (c : Dev nD) : (V3 m ρ c main_v5_1 : S65536x64.Idx → EReal) = Cert.ReferenceIdeal.Read.val_main_v11 (F := Ideal) (m ((c : Thread nD τ).loc main_arg0)) (m ((c : Thread nD τ).loc main_arg6)) (m ((c : Thread nD τ).loc main_arg7)) :=
  (KHost1.V3_self1 m ρ c).trans ((Arr0.arr13 (V1 m ρ) c).trans (by
    rw [KHost0.V1_arg0, KHost0.V1_arg6, KHost0.V1_bias1]
    exact (RefLin.selfHi _ _ _).symm))

theorem ident (c : Dev nD) : (V3 m ρ c main_v5_2 : S65536x64.Idx → EReal) = Cert.ReferenceIdeal.Read.val_main_v73 (F := Ideal) (m ((c : Thread nD τ).loc main_arg0)) (m ((c : Thread nD τ).loc main_arg12)) (m ((c : Thread nD τ).loc main_arg13)) :=
  (KHost1.V3_self2 m ρ c).trans ((Arr0.arr14 (V1 m ρ) c).trans (by
    rw [KHost0.V1_arg0, KHost0.V1_arg12, KHost0.V1_bias4]
    exact (RefLin.ident _ _ _).symm))

theorem msgLo (c : Dev nD) : (W2 m ρ c (Proc.devRef .tc main_v5_3) : S65536x64.Idx → EReal) = Cert.ReferenceIdeal.Read.val_main_v19 (F := Ideal) (m ((c : Thread nD τ).loc main_arg0)) (m ((c : Thread nD τ).loc main_arg1)) (m ((c : Thread nD τ).loc main_arg8)) (m ((c : Thread nD τ).loc main_arg9)) :=
  (KHost0.W2_MsgLo m ρ c).trans ((Arr0.arr15 (V1 m ρ) c).trans (by
    rw [KHost0.V1_arg0, KHost0.V1_arg8, KHost0.V1_bias2, KHost0.V1_arg1]
    exact (RefLin.msgLo _ _ _ _).symm))

theorem msgHi (c : Dev nD) : (W2 m ρ c (Proc.devRef .tc main_v5_4) : S65536x64.Idx → EReal) = Cert.ReferenceIdeal.Read.val_main_v46 (F := Ideal) (m ((c : Thread nD τ).loc main_arg0)) (m ((c : Thread nD τ).loc main_arg1)) (m ((c : Thread nD τ).loc main_arg10)) (m ((c : Thread nD τ).loc main_arg11)) :=
  (KHost0.W2_MsgHi m ρ c).trans ((Arr0.arr16 (V1 m ρ) c).trans (by
    rw [KHost0.V1_arg0, KHost0.V1_arg10, KHost0.V1_bias3, KHost0.V1_arg1]
    exact (RefLin.msgHi _ _ _ _).symm))

/-! ## The two means -/

theorem meanLo (c : Dev nD) : (V3 m ρ c main_v36 : S65536x64.Idx → EReal)
    = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (KHostLo.mean_eq m ρ c).trans (by
    rw [msgLo m ρ c, KHost0.W2_arg2, KHost0.W2_arg3]
    exact Bridge.meanLo _ _ _ _ _ _)

theorem meanHi (c : Dev nD) : (V3 m ρ c main_v39 : S65536x64.Idx → EReal)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) :=
  (KHostHi.mean_eq m ρ c).trans (by
    rw [msgHi m ρ c, KHost0.W2_arg2, KHost0.W2_arg3]
    exact Bridge.meanHi _ _ _ _ _ _)

/-! ## The result -/

theorem add_eq (A B : FVec Ideal S65536x64 .f32) : Arr1.addArr A B = addf A B := rfl
theorem sub_eq (A B : FVec Ideal S65536x64 .f32) : Arr1.subArr A B = subf A B := rfl

set_option maxHeartbeats 1000000 in
/-- The result buffer's final contents are the reference's result term at the launched arrays. -/
theorem result (c : Dev nD) :
    W4 m ρ c (Proc.devRef .tc main_v40)
      = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W4_arr m ρ c 9).trans ((Arr1.arr9 (V3 m ρ) c).trans ?_)
  rw [selfLo m ρ c, meanLo m ρ c, selfHi m ρ c, meanHi m ρ c, ident m ρ c, KHost1.V3_arg14, KHost1.V3_arg15, KHost1.V3_arg16, KHost1.V3_arg17,
    add_eq, sub_eq]
  exact (RefMix.result_eq _ _ _ _ _ _ _ _ _ _ _ _ _ _ _ _ _ _).symm

end Cert.Sage.KValue

end
-- ==== Proof.lean ====
/-
  A graph layer in two forms, equal on the extended reals.

  Five projections `relu (x · Wᵀ + b)` of the node features; two of them, scaled by the node's norm, are gathered along
  the edges' sources and summed into the edges' destinations, and divided by `max (in-degree, 1)`; with the other three
  they form a low branch (sum), a high branch (difference) and an identity branch, which are mixed by the softmax of
  three scores obtained from one logistic gate per branch and a 3×3 mixer.

  The kernel computes the projections block by block in a first kernel (4096 nodes per grid point), leaves the gather,
  the two sums and the degree to the host, multiplies by the reciprocal of `max (degree, 1)` where the reference divides,
  and does the attention stage block by block in a second kernel.  On the extended reals the block structure
  disappears (every entry depends only on its own row), the matrix unit's pass and the lane sums are the reference's
  matrix products, the gate is the same expression, and the product with `1 / max (degree, 1)` is the quotient because
  `max (degree, 1) ≥ 1` is never zero.  No finiteness of the inputs is used.

  The three frames are the generated ones (the reference's is its generated run with the result dropped); the ideal pass
  rewrote nothing, so the idealization claim is trivial; the value claim states both runs at the reference's result term
  of the kernel's launch arrays.
-/
import proofs.«175057_j62878321213496_2_alg».proof.Defs
import proofs.«175057_j62878321213496_2_alg».proof.Proof.Gen.Kernel
import proofs.«175057_j62878321213496_2_alg».proof.Proof.Gen.Kernel.Skeleton
import proofs.«175057_j62878321213496_2_alg».proof.Proof.Gen.Kernel.Launch
import proofs.«175057_j62878321213496_2_alg».proof.Proof.Gen.Kernel.Points
import proofs.«175057_j62878321213496_2_alg».proof.Proof.Gen.Kernel.Frame
import proofs.«175057_j62878321213496_2_alg».proof.Proof.Gen.KernelIdeal
import proofs.«175057_j62878321213496_2_alg».proof.Proof.Gen.KernelIdeal.Skeleton
import proofs.«175057_j62878321213496_2_alg».proof.Proof.Gen.KernelIdeal.Launch
import proofs.«175057_j62878321213496_2_alg».proof.Proof.Gen.KernelIdeal.Points
import proofs.«175057_j62878321213496_2_alg».proof.Proof.Gen.KernelIdeal.Frame
import proofs.«175057_j62878321213496_2_alg».proof.Proof.Gen.ReferenceIdeal
import proofs.«175057_j62878321213496_2_alg».proof.Proof.Gen.Pre_finite_inputs
import proofs.«175057_j62878321213496_2_alg».proof.Proof.Gen.ReferenceIdeal.Run
import proofs.«175057_j62878321213496_2_alg».proof.Proof.Gen.ReferenceIdeal.Read
import proofs.«175057_j62878321213496_2_alg».proof.Proof.KRun
import proofs.«175057_j62878321213496_2_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result term of the launch arrays: the kernel by reading its result buffer
    back through its four segments, the reference by its own run, the arguments agreeing. -/
theorem algebraic : Cert.algebraic_KernelIdeal_ReferenceIdeal := by
  intro m ρ m' ρ' _ hagree
  refine ⟨fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c => ⟨(h c).1.trans (Cert.Sage.KValue.result m ρ c), (h c).2⟩) (Cert.Sage.KRun.run m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12, h13, h14, h15, h16, h17⟩ := hagree c
    rw [Cert.ReferenceIdeal.Read.val_main_v114_eq, h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
